-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1024x3072 : Shape := ⟨2, ![1024, 3072]⟩
abbrev S3072 : Shape := ⟨1, ![3072]⟩
abbrev S8192x1024 : Shape := ⟨2, ![8192, 1024]⟩
abbrev S8192x3072 : Shape := ⟨2, ![8192, 3072]⟩
abbrev S512x1024 : Shape := ⟨2, ![512, 1024]⟩
abbrev S512x3072 : Shape := ⟨2, ![512, 3072]⟩
abbrev S1x3072 : Shape := ⟨2, ![1, 3072]⟩
abbrev S4x2048x3072 : Shape := ⟨3, ![4, 2048, 3072]⟩
abbrev S1x512x1024 : Shape := ⟨3, ![1, 512, 1024]⟩
abbrev S1x2048x1024 : Shape := ⟨3, ![1, 2048, 1024]⟩
abbrev S2048x1024 : Shape := ⟨2, ![2048, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩

abbrev nBuf : Space → Nat
  | .hbm => 17
  | .vmem => 14
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x3072, .f32⟩
  | .hbm, ⟨11, _⟩ => ⟨S1024x3072, .bf16⟩
  | .hbm, ⟨12, _⟩ => ⟨S3072, .f32⟩
  | .hbm, ⟨13, _⟩ => ⟨S8192x1024, .f32⟩
  | .hbm, ⟨14, _⟩ => ⟨S8192x3072, .bf16⟩
  | .hbm, ⟨15, _⟩ => ⟨S4x2048x3072, .bf16⟩
  | .hbm, ⟨16, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S3072, .f32⟩
  | .local _ .vmem, ⟨4, _⟩ => ⟨S512x3072, .bf16⟩
  | .local _ .vmem, ⟨5, _⟩ => ⟨S512x3072, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1x2048x1024, .bf16⟩
  | .local _ .vmem, ⟨11, _⟩ => ⟨S1x2048x1024, .bf16⟩
  | .local _ .vmem, ⟨12, _⟩ => ⟨S1x512x1024, .f32⟩
  | .local _ .vmem, ⟨13, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S3072 : S3072.ShapeCasts S3072
  shapeCasts_S3072_S1x3072 : S3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S8192x3072_S4x2048x3072 : S8192x3072.ShapeCasts S4x2048x3072
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  transposes_S2048x1024_p1_0_S1024x2048 : S2048x1024.Transposes [1, 0] S1024x2048
  reduces_S512x2048_S512 : S512x2048.Reduces [1] S512
  shapeCasts_S512_S512x1 : S512.ShapeCasts S512x1
  broadcasts_S512x1_S512x2048 : S512x1.Broadcasts S512x2048
  shapeCasts_S512x1024_S1x512x1024 : S512x1024.ShapeCasts S1x512x1024
  dot_S512x1024_S1024x3072_S512x3072_1_0_0_1_n_n_wf : DotDims.WF S512x1024 S1024x3072 S512x3072 [1] [0] [0] [1] [] []
  dot_S512x1024_S1024x2048_S512x2048_1_0_0_1_n_n_wf : DotDims.WF S512x1024 S1024x2048 S512x2048 [1] [0] [0] [1] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S8192x3072.size a
  hwx0_3 : ∀ i : grid0.Coords, EltTy.bits .bf16 = 32 ∨ (Rect.block (s := S8192x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x3072.size a
  hwx1_0 : ∀ i : grid1.Coords, EltTy.bits .bf16 = 32 ∨ (Rect.block (s := S4x2048x3072) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x3072.size a
  hwx1_1 : ∀ i : grid1.Coords, EltTy.bits .bf16 = 32 ∨ (Rect.block (s := S4x2048x3072) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x3072.size a
  hwx1_2 : ∀ i : grid1.Coords, EltTy.bits .bf16 = 32 ∨ (Rect.block (s := S4x2048x3072) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x2048x1024.size a
  hwx1_3 : ∀ i : grid1.Coords, EltTy.bits .f32 = 32 ∨ (Rect.block (s := S4x2048x1024) S1x512x1024.size (cc1_transform_3 i) (hinb1_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v6) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x2048, .f32⟩
  | .hbm, ⟨20, _⟩ => ⟨S_, .f32⟩
  | .hbm, ⟨21, _⟩ => ⟨S4x2048x2048, .f32⟩
  | .hbm, ⟨22, _⟩ => ⟨S4x2048x2048, .f32⟩
  | .hbm, ⟨23, _⟩ => ⟨S_, .f32⟩
  | .hbm, ⟨24, _⟩ => ⟨S4x2048, .f32⟩
  | .hbm, ⟨25, _⟩ => ⟨S_, .f32⟩
  | .hbm, ⟨26, _⟩ => ⟨S4x2048, .f32⟩
  | .hbm, ⟨27, _⟩ => ⟨S4x2048, .f32⟩
  | .hbm, ⟨28, _⟩ => ⟨S4x2048x1, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S_, .f32⟩
  | .hbm, ⟨33, _⟩ => ⟨S4x2048, .f32⟩
  | .hbm, ⟨34, _⟩ => ⟨S4x2048x1, .f32⟩
  | .hbm, ⟨35, _⟩ => ⟨S4x2048x2048, .f32⟩
  | .hbm, ⟨36, _⟩ => ⟨S4x2048x2048, .f32⟩
  | .hbm, ⟨37, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KBody.lean ====
/-
  The two kernel bodies as triples.

  The projection body reads its three input blocks whole, and stores into its output block, whole, one value computed
  from them; the attention body likewise reads a block of queries and the blocks of keys and values and stores one
  value.  Each triple says: from the input buffers at given contents and the output buffer at any contents, the body
  runs to the end leaving the inputs as they were and the output at the value of its one store.
-/
import proofs.«171916_j39848706572604_2_alg».proof.Proof.Gen.Kernel.Launch
import proofs.«171916_j39848706572604_2_alg».proof.Proof.Gen.Kernel.Skeleton
import proofs.«171916_j39848706572604_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The rectangles the bodies access: every one a whole block -/

abbrev rX : Rect S512x1024 := Rect.unit (s := S512x1024) ![0, 0] S512x1024.size inb_S512x1024_S512x1024_0_0
abbrev rW : Rect S1024x3072 := Rect.unit (s := S1024x3072) ![0, 0] S1024x3072.size inb_S1024x3072_S1024x3072_0_0
abbrev rB : Rect S3072 := Rect.unit (s := S3072) ![0] S3072.size inb_S3072_S3072_0
abbrev rP : Rect S512x3072 := Rect.unit (s := S512x3072) ![0, 0] S512x3072.size inb_S512x3072_S512x3072_0_0
abbrev rQ : Rect S1x512x1024 := Rect.unit (s := S1x512x1024) ![0, 0, 0] S1x512x1024.size inb_S1x512x1024_S1x512x1024_0_0_0
abbrev rK : Rect S1x2048x1024 := Rect.unit (s := S1x2048x1024) ![0, 0, 0] S1x2048x1024.size inb_S1x2048x1024_S1x2048x1024_0_0_0

/-! ## What each body leaves in its output buffer -/

/-- The projection body's output buffer after the body: its one store, of the value computed from the three inputs. -/
def projOut (x0 : Vec F S512x1024 .f32) (x1 : Vec F S1024x3072 .bf16) (x2 : Vec F S3072 .f32) : Vec F S512x3072 .bf16 :=
  View.canon [⟨rP, k0_pay1 (View.ld x0 rX) (View.ld x1 rW) (View.ld x2 rB)⟩]

theorem projCover (p0 : Vec F S512x3072 .bf16) (y : S512x3072.Idx) :
    ∃ pc ∈ ([⟨rP, p0⟩] : List (View.Piece (Elt F) S512x3072 .bf16)), y ∈ pc.1.set :=
  View.cover_of_tiled [⟨rP, p0⟩] S512x3072.size (by rfl) y

/-- The attention body's output buffer after the body: its one store. -/
def attnOut (x0 : Vec F S1x512x1024 .bf16) (x1 : Vec F S1x2048x1024 .bf16) (x2 : Vec F S1x2048x1024 .bf16) : Vec F S1x512x1024 .f32 :=
  View.canon [⟨rQ, k1_pay1 (View.ld x0 rQ) (View.ld x1 rK) (View.ld x2 rK)⟩]

theorem attnCover (p0 : Vec F S1x512x1024 .f32) (y : S1x512x1024.Idx) :
    ∃ pc ∈ ([⟨rQ, p0⟩] : List (View.Piece (Elt F) S1x512x1024 .f32)), y ∈ pc.1.set :=
  View.cover_of_tiled [⟨rQ, p0⟩] S1x512x1024.size (by rfl) y

/-! ## The triples -/

set_option maxHeartbeats 1000000 in
theorem sound_proj (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S3072 .f32) (harg3 : arg3.IsWhole) (arg4 : Memref sig .tc .vmem S512x3072 .bf16) (harg4 : arg4.IsWhole)
    (x0 : Vec F S512x1024 .f32) (x1 : Vec F S1024x3072 .bf16) (x2 : Vec F S3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (projOut x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (projCover _)

set_option maxHeartbeats 1000000 in
theorem sound_attn (c : Dev nD) (E : Set ℕ) (i : grid1.Coords)
    (arg2 : Memref sig .tc .vmem S1x512x1024 .bf16) (harg2 : arg2.IsWhole) (arg3 : Memref sig .tc .vmem S1x2048x1024 .bf16) (harg3 : arg3.IsWhole)
    (arg4 : Memref sig .tc .vmem S1x2048x1024 .bf16) (harg4 : arg4.IsWhole) (arg5 : Memref sig .tc .vmem S1x512x1024 .f32) (harg5 : arg5.IsWhole)
    (x0 : Vec F S1x512x1024 .bf16) (x1 : Vec F S1x2048x1024 .bf16) (x2 : Vec F S1x2048x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (attnOut x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (attnCover _)

end Cert.Kernel.Hand

end
-- ==== Proof.KData.lean ====
/-
  The proof data of the two kernel calls and their body obligations.

  Each call is entered with its arrays at the contents `V` the call finds.  After the body at a grid point an input's
  buffer still holds the input's block at that point and the output's buffer holds the body's one stored value, computed
  from the input blocks.  The second call reads ONE array through three windows (queries, keys, values): the array is
  held in three shares, one per window.
-/
import proofs.«171916_j39848706572604_2_alg».proof.Proof.Gen.Kernel.Launch
import proofs.«171916_j39848706572604_2_alg».proof.Proof.Gen.Kernel.Skeleton
import proofs.«171916_j39848706572604_2_alg».proof.Proof.Gen.Kernel.Points
import proofs.«171916_j39848706572604_2_alg».proof.Proof.KBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

/-! ## The projection call -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The proof data of the projection call on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => projOut (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = projOut (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_proj c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

/-! ## The attention call -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The proof data of the attention call on core `c`: the three input windows hold their one array in three shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => attnOut (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = attnOut (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_attn c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.KSegs.lean ====
/-
  The run of the whole program: the two host stretches and the two kernel calls in order.

  Between two items every unscoped buffer of the core is held whole at known contents: the launch memory, then what a host
  stretch's operations compute from it, then — after a kernel call — the call's output array at what the call's
  write-backs leave and every other buffer as before.  The second call reads one array through three windows; its
  full share is cut in three on entry and put together again on exit.
-/
import proofs.«171916_j39848706572604_2_alg».proof.Proof.Gen.Kernel.Launch
import proofs.«171916_j39848706572604_2_alg».proof.Proof.Gen.Kernel.Skeleton
import proofs.«171916_j39848706572604_2_alg».proof.Proof.Gen.Kernel.Points
import proofs.«171916_j39848706572604_2_alg».proof.Proof.KData
import proofs.«171916_j39848706572604_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second call: its output array at what its write-backs leave, every other buffer as before. -/
def W4 (c : Dev nD) : Valuation τ sig (Elt F) :=
  Function.update (W3 m ρ c) (Proc.devRef .tc main_v9) ((dat1 (V3 m ρ) c).arrAt 3 cfg1.N)
theorem W4_out (c : Dev nD) : W4 m ρ c (Proc.devRef .tc main_v9) = (dat1 (V3 m ρ) c).arrAt 3 cfg1.N := by
  unfold W4; exact Function.update_self _ _ _
theorem W4_of_ne (c : Dev nD) (b : Ref sig .tc) (hb : b ≠ main_v9) :
    W4 m ρ c (Proc.devRef .tc b) = W3 m ρ c (Proc.devRef .tc b) := by
  unfold W4; exact Function.update_of_ne (StableHlo.devRef_ne_of_ne hb) _ _
abbrev V4 : (c : Dev nD) → (b : Ref sig .tc) → Buf (Elt F) ((c : Thread nD τ).loc b) := fun c b => W4 m ρ c b

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The first call as a segment -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second call's one input array, in three shares -/

section Shares
variable (V : (c : Dev nD) → (b : Ref sig .tc) → Buf (Elt F) ((c : Thread nD τ).loc b))

theorem arrImage1 : Finset.univ.image (Pipeline.arrRef spec1) = {main_v8, main_v9} := by decide

/-- The two buffers behind the second call's arrays, whole at the full share, are the call's arrays at entry: the
    input array's share cut in three. -/
theorem arrays_of_arrBufs1 (c : Dev nD) :
    (Pipeline.arrBufs (Ix := Unit) (Name := ℕ) (U := UR sig nD τ) (Lvl := ℕ) spec1 c (V c) : sProp 𝕄)
      ⊢ (dat1 V c).arrays ((dat1 V c).arrAt · 0) := by
  unfold Pipeline.arrBufs Dat.arrays
  rw [arrImage1, bigSep_insert (by decide), bigSep_singleton, bigSep_W1]
  rw [show (cfg1.win 0).arr.view.set = Finset.univ from (arr_whole1 0).set_eq_univ,
    show (cfg1.win 3).arr.view.set = Finset.univ from (arr_whole1 3).set_eq_univ]
  show iprop((((c : Thread nD τ).loc main_v8) ↦{fullShare} V c main_v8) ∗ (((c : Thread nD τ).loc main_v9) ↦{fullShare} V c main_v9))
    ⊢ (iprop((((c : Thread nD τ).loc main_v8) ↦{fullShare.left} V c main_v8) ∗ (((c : Thread nD τ).loc main_v8) ↦{fullShare.right.left} V c main_v8)
      ∗ (((c : Thread nD τ).loc main_v8) ↦{fullShare.right.right} V c main_v8) ∗ (((c : Thread nD τ).loc main_v9) ↦{fullShare} V c main_v9)) : sProp 𝕄)
  iintro ⟨H8, H9⟩
  ihave H8' := (pointsTo_share (PosShare.mem_left_op_right fullShare)).1 $$ H8
  icases H8' with ⟨Ha, Hb⟩
  ihave Hb' := (pointsTo_share (PosShare.mem_left_op_right fullShare.right)).1 $$ Hb
  icases Hb' with ⟨Hb1, Hb2⟩
  isplitl [Ha]; · iexact Ha
  isplitl [Hb1]; · iexact Hb1
  isplitl [Hb2]; · iexact Hb2
  iexact H9

/-- And back: the call's arrays after its last point — the input array as entered, in its three shares, and the output
    array at what the write-backs leave — are the two buffers whole, at any contents `V'` that has the input array as
    `V` has it and the output array at what the write-backs leave. -/
theorem arrBufs_of_arrays1 (c : Dev nD) (V' : (b : Ref sig .tc) → Buf (Elt F) ((c : Thread nD τ).loc b))
    (h8 : V' main_v8 = V c main_v8) (h9 : V' main_v9 = (dat1 V c).arrAt 3 cfg1.N) :
    (dat1 V c).arrays ((dat1 V c).arrAt · cfg1.N)
      ⊢ (Pipeline.arrBufs (Ix := Unit) (Name := ℕ) (U := UR sig nD τ) (Lvl := ℕ) spec1 c V' : sProp 𝕄) := by
  unfold Pipeline.arrBufs Dat.arrays
  rw [arrImage1, bigSep_insert (by decide), bigSep_singleton, bigSep_W1]
  rw [show (cfg1.win 0).arr.view.set = Finset.univ from (arr_whole1 0).set_eq_univ,
    show (cfg1.win 3).arr.view.set = Finset.univ from (arr_whole1 3).set_eq_univ]
  rw [h8, h9]
  dsimp only
  rw [(dat1 V c).arrAt_in 0 rfl, (dat1 V c).arrAt_in 1 rfl, (dat1 V c).arrAt_in 2 rfl]
  show (iprop((((c : Thread nD τ).loc main_v8) ↦{fullShare.left} V c main_v8) ∗ (((c : Thread nD τ).loc main_v8) ↦{fullShare.right.left} V c main_v8)
      ∗ (((c : Thread nD τ).loc main_v8) ↦{fullShare.right.right} V c main_v8) ∗ (((c : Thread nD τ).loc main_v9) ↦{fullShare} (dat1 V c).arrAt 3 cfg1.N)) : sProp 𝕄)
    ⊢ iprop((((c : Thread nD τ).loc main_v8) ↦{fullShare} V c main_v8) ∗ (((c : Thread nD τ).loc main_v9) ↦{fullShare} (dat1 V c).arrAt 3 cfg1.N))
  iintro ⟨Ha, Hb1, Hb2, H9⟩
  isplitr [H9]
  · iapply (pointsTo_share (PosShare.mem_left_op_right fullShare)).2
    isplitl [Ha]; · iexact Ha
    iapply (pointsTo_share (PosShare.mem_left_op_right fullShare.right)).2
    isplitl [Hb1]; · iexact Hb1
    iexact Hb2
  iexact H9

end Shares

/-! ## The second call as a segment -/

theorem hrest1 (c : Dev nD) : ∀ b, b ∉ Finset.univ.image (Pipeline.arrRef spec1) → V4 m ρ c b = V3 m ρ c b :=
  fun b hb => W4_of_ne m ρ c b fun e => hb (by rw [arrImage1, e]; decide)

set_option backward.isDefEq.respectTransparency.types false in
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (unscopedBufs (Ix := Unit) (Name := ℕ) (U := UR sig nD τ) (Lvl := ℕ) c (V3 m ρ c) : sProp 𝕄)
        ⊢ iprop((pdats m ρ 1 c).arrays ((pdats m ρ 1 c).arrAt · 0)
            ∗ Pipeline.unscopedRest (Ix := Unit) (Name := ℕ) (U := UR sig nD τ) (Lvl := ℕ) spec1 c (V3 m ρ c)) := by
      rw [Pipeline.unscopedBufs_split₀ (Pipeline.pin (pcfgs (F := F)) adm) 1 winFacts₀1.arr_unscoped c (V3 m ρ c)]
      exact sep_mono (arrays_of_arrBufs1 (V3 m ρ) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
            ∗ Pipeline.unscopedRest (Ix := Unit) (Name := ℕ) (U := UR sig nD τ) (Lvl := ℕ) spec1 c (V3 m ρ c))
        ⊢ (unscopedBufs (Ix := Unit) (Name := ℕ) (U := UR sig nD τ) (Lvl := ℕ) c (V4 m ρ c) : sProp 𝕄) := by
      rw [Pipeline.unscopedBufs_split₀ (Pipeline.pin (pcfgs (F := F)) adm) 1 winFacts₀1.arr_unscoped c (V4 m ρ c)]
      refine sep_mono (arrBufs_of_arrays1 (V3 m ρ) c (V4 m ρ c) (W4_of_ne m ρ c main_v8 (by decide)) (W4_out m ρ c)) (Entails.of_eq ?_)
      unfold Pipeline.unscopedRest
      exact bigSep_congr fun b hb => by rw [hrest1 m ρ c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The whole program as segments, and its run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program from memory `m` with zero counters ends, faulting nowhere, with every
    unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## What the last boundary holds -/

/-- A buffer no item writes holds its launch contents at the end. -/
theorem W4_keep (c : Dev nD) (b : Ref sig .tc) (h4 : b ≠ main_v9) (h3 : b ∉ hostOps1_W) (h2 : ∀ w, Pipeline.arrRef spec0 w ≠ b)
    (h1 : b ∉ hostOps0_W) : W4 m ρ c (Proc.devRef .tc b) = m ((c : Thread nD τ).loc b) :=
  (W4_of_ne m ρ c b h4).trans <| (StableHlo.after_of_writes_sub hostOps1 _ hostOps1_writes h3).trans <|
    (W2_of_ne m ρ c b h2).trans <| (StableHlo.after_of_writes_sub hostOps0 _ hostOps0_writes h1).trans rfl

/-- The program's run with its result named and its arguments unchanged. -/
theorem run_result : θ_run defs (onTc (τ := τ) (main (F := F))) ⟨m, fun _ => 0, ρ⟩ (fun r => ∀ c : Dev nD,
      r.2.mem ((c.tc : Thread nD τ).loc main_v9) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v9 (by decide))).trans (W4_out m ρ c),
     (h c _ (mem_uc main_arg0 (by decide))).trans (W4_keep m ρ c main_arg0 (by decide) (by decide) (by decide) (by decide)),
     (h c _ (mem_uc main_arg1 (by decide))).trans (W4_keep m ρ c main_arg1 (by decide) (by decide) (by decide) (by decide)),
     (h c _ (mem_uc main_arg2 (by decide))).trans (W4_keep m ρ c main_arg2 (by decide) (by decide) (by decide) (by decide)),
     (h c _ (mem_uc main_arg3 (by decide))).trans (W4_keep m ρ c main_arg3 (by decide) (by decide) (by decide) (by decide)),
     (h c _ (mem_uc main_arg4 (by decide))).trans (W4_keep m ρ c main_arg4 (by decide) (by decide) (by decide) (by decide)),
     (h c _ (mem_uc main_arg5 (by decide))).trans (W4_keep m ρ c main_arg5 (by decide) (by decide) (by decide) (by decide)),
     (h c _ (mem_uc main_arg6 (by decide))).trans (W4_keep m ρ c main_arg6 (by decide) (by decide) (by decide) (by decide))⟩)
    (run_all m ρ)

end Cert.Kernel.Hand

end
-- ==== Proof.IBody.lean ====
/-
  The two kernel bodies as triples.

  The projection body reads its three input blocks whole, and stores into its output block, whole, one value computed
  from them; the attention body likewise reads a block of queries and the blocks of keys and values and stores one
  value.  Each triple says: from the input buffers at given contents and the output buffer at any contents, the body
  runs to the end leaving the inputs as they were and the output at the value of its one store.
-/
import proofs.«171916_j39848706572604_2_alg».proof.Proof.Gen.KernelIdeal.Launch
import proofs.«171916_j39848706572604_2_alg».proof.Proof.Gen.KernelIdeal.Skeleton
import proofs.«171916_j39848706572604_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The rectangles the bodies access: every one a whole block -/

abbrev rX : Rect S512x1024 := Rect.unit (s := S512x1024) ![0, 0] S512x1024.size inb_S512x1024_S512x1024_0_0
abbrev rW : Rect S1024x3072 := Rect.unit (s := S1024x3072) ![0, 0] S1024x3072.size inb_S1024x3072_S1024x3072_0_0
abbrev rB : Rect S3072 := Rect.unit (s := S3072) ![0] S3072.size inb_S3072_S3072_0
abbrev rP : Rect S512x3072 := Rect.unit (s := S512x3072) ![0, 0] S512x3072.size inb_S512x3072_S512x3072_0_0
abbrev rQ : Rect S1x512x1024 := Rect.unit (s := S1x512x1024) ![0, 0, 0] S1x512x1024.size inb_S1x512x1024_S1x512x1024_0_0_0
abbrev rK : Rect S1x2048x1024 := Rect.unit (s := S1x2048x1024) ![0, 0, 0] S1x2048x1024.size inb_S1x2048x1024_S1x2048x1024_0_0_0

/-! ## What each body leaves in its output buffer -/

/-- The projection body's output buffer after the body: its one store, of the value computed from the three inputs. -/
def projOut (x0 : Vec F S512x1024 .f32) (x1 : Vec F S1024x3072 .bf16) (x2 : Vec F S3072 .f32) : Vec F S512x3072 .bf16 :=
  View.canon [⟨rP, k0_pay1 (View.ld x0 rX) (View.ld x1 rW) (View.ld x2 rB)⟩]

theorem projCover (p0 : Vec F S512x3072 .bf16) (y : S512x3072.Idx) :
    ∃ pc ∈ ([⟨rP, p0⟩] : List (View.Piece (Elt F) S512x3072 .bf16)), y ∈ pc.1.set :=
  View.cover_of_tiled [⟨rP, p0⟩] S512x3072.size (by rfl) y

/-- The attention body's output buffer after the body: its one store. -/
def attnOut (x0 : Vec F S1x512x1024 .bf16) (x1 : Vec F S1x2048x1024 .bf16) (x2 : Vec F S1x2048x1024 .bf16) : Vec F S1x512x1024 .f32 :=
  View.canon [⟨rQ, k1_pay1 (View.ld x0 rQ) (View.ld x1 rK) (View.ld x2 rK)⟩]

theorem attnCover (p0 : Vec F S1x512x1024 .f32) (y : S1x512x1024.Idx) :
    ∃ pc ∈ ([⟨rQ, p0⟩] : List (View.Piece (Elt F) S1x512x1024 .f32)), y ∈ pc.1.set :=
  View.cover_of_tiled [⟨rQ, p0⟩] S1x512x1024.size (by rfl) y

/-! ## The triples -/

set_option maxHeartbeats 1000000 in
theorem sound_proj (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S3072 .f32) (harg3 : arg3.IsWhole) (arg4 : Memref sig .tc .vmem S512x3072 .bf16) (harg4 : arg4.IsWhole)
    (x0 : Vec F S512x1024 .f32) (x1 : Vec F S1024x3072 .bf16) (x2 : Vec F S3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (projOut x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (projCover _)

set_option maxHeartbeats 1000000 in
theorem sound_attn (c : Dev nD) (E : Set ℕ) (i : grid1.Coords)
    (arg2 : Memref sig .tc .vmem S1x512x1024 .bf16) (harg2 : arg2.IsWhole) (arg3 : Memref sig .tc .vmem S1x2048x1024 .bf16) (harg3 : arg3.IsWhole)
    (arg4 : Memref sig .tc .vmem S1x2048x1024 .bf16) (harg4 : arg4.IsWhole) (arg5 : Memref sig .tc .vmem S1x512x1024 .f32) (harg5 : arg5.IsWhole)
    (x0 : Vec F S1x512x1024 .bf16) (x1 : Vec F S1x2048x1024 .bf16) (x2 : Vec F S1x2048x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (attnOut x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (attnCover _)

end Cert.KernelIdeal.Hand

end
-- ==== Proof.IData.lean ====
/-
  The proof data of the two kernel calls and their body obligations.

  Each call is entered with its arrays at the contents `V` the call finds.  After the body at a grid point an input's
  buffer still holds the input's block at that point and the output's buffer holds the body's one stored value, computed
  from the input blocks.  The second call reads ONE array through three windows (queries, keys, values): the array is
  held in three shares, one per window.
-/
import proofs.«171916_j39848706572604_2_alg».proof.Proof.Gen.KernelIdeal.Launch
import proofs.«171916_j39848706572604_2_alg».proof.Proof.Gen.KernelIdeal.Skeleton
import proofs.«171916_j39848706572604_2_alg».proof.Proof.Gen.KernelIdeal.Points
import proofs.«171916_j39848706572604_2_alg».proof.Proof.IBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

/-! ## The projection call -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The proof data of the projection call on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => projOut (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = projOut (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_proj c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

/-! ## The attention call -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The proof data of the attention call on core `c`: the three input windows hold their one array in three shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => attnOut (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = attnOut (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_attn c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.ISegs.lean ====
/-
  The run of the whole program: the two host stretches and the two kernel calls in order.

  Between two items every unscoped buffer of the core is held whole at known contents: the launch memory, then what a host
  stretch's operations compute from it, then — after a kernel call — the call's output array at what the call's
  write-backs leave and every other buffer as before.  The second call reads one array through three windows; its
  full share is cut in three on entry and put together again on exit.
-/
import proofs.«171916_j39848706572604_2_alg».proof.Proof.Gen.KernelIdeal.Launch
import proofs.«171916_j39848706572604_2_alg».proof.Proof.Gen.KernelIdeal.Skeleton
import proofs.«171916_j39848706572604_2_alg».proof.Proof.Gen.KernelIdeal.Points
import proofs.«171916_j39848706572604_2_alg».proof.Proof.IData
import proofs.«171916_j39848706572604_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second call: its output array at what its write-backs leave, every other buffer as before. -/
def W4 (c : Dev nD) : Valuation τ sig (Elt F) :=
  Function.update (W3 m ρ c) (Proc.devRef .tc main_v9) ((dat1 (V3 m ρ) c).arrAt 3 cfg1.N)
theorem W4_out (c : Dev nD) : W4 m ρ c (Proc.devRef .tc main_v9) = (dat1 (V3 m ρ) c).arrAt 3 cfg1.N := by
  unfold W4; exact Function.update_self _ _ _
theorem W4_of_ne (c : Dev nD) (b : Ref sig .tc) (hb : b ≠ main_v9) :
    W4 m ρ c (Proc.devRef .tc b) = W3 m ρ c (Proc.devRef .tc b) := by
  unfold W4; exact Function.update_of_ne (StableHlo.devRef_ne_of_ne hb) _ _
abbrev V4 : (c : Dev nD) → (b : Ref sig .tc) → Buf (Elt F) ((c : Thread nD τ).loc b) := fun c b => W4 m ρ c b

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The first call as a segment -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second call's one input array, in three shares -/

section Shares
variable (V : (c : Dev nD) → (b : Ref sig .tc) → Buf (Elt F) ((c : Thread nD τ).loc b))

theorem arrImage1 : Finset.univ.image (Pipeline.arrRef spec1) = {main_v8, main_v9} := by decide

/-- The two buffers behind the second call's arrays, whole at the full share, are the call's arrays at entry: the
    input array's share cut in three. -/
theorem arrays_of_arrBufs1 (c : Dev nD) :
    (Pipeline.arrBufs (Ix := Unit) (Name := ℕ) (U := UR sig nD τ) (Lvl := ℕ) spec1 c (V c) : sProp 𝕄)
      ⊢ (dat1 V c).arrays ((dat1 V c).arrAt · 0) := by
  unfold Pipeline.arrBufs Dat.arrays
  rw [arrImage1, bigSep_insert (by decide), bigSep_singleton, bigSep_W1]
  rw [show (cfg1.win 0).arr.view.set = Finset.univ from (arr_whole1 0).set_eq_univ,
    show (cfg1.win 3).arr.view.set = Finset.univ from (arr_whole1 3).set_eq_univ]
  show iprop((((c : Thread nD τ).loc main_v8) ↦{fullShare} V c main_v8) ∗ (((c : Thread nD τ).loc main_v9) ↦{fullShare} V c main_v9))
    ⊢ (iprop((((c : Thread nD τ).loc main_v8) ↦{fullShare.left} V c main_v8) ∗ (((c : Thread nD τ).loc main_v8) ↦{fullShare.right.left} V c main_v8)
      ∗ (((c : Thread nD τ).loc main_v8) ↦{fullShare.right.right} V c main_v8) ∗ (((c : Thread nD τ).loc main_v9) ↦{fullShare} V c main_v9)) : sProp 𝕄)
  iintro ⟨H8, H9⟩
  ihave H8' := (pointsTo_share (PosShare.mem_left_op_right fullShare)).1 $$ H8
  icases H8' with ⟨Ha, Hb⟩
  ihave Hb' := (pointsTo_share (PosShare.mem_left_op_right fullShare.right)).1 $$ Hb
  icases Hb' with ⟨Hb1, Hb2⟩
  isplitl [Ha]; · iexact Ha
  isplitl [Hb1]; · iexact Hb1
  isplitl [Hb2]; · iexact Hb2
  iexact H9

/-- And back: the call's arrays after its last point — the input array as entered, in its three shares, and the output
    array at what the write-backs leave — are the two buffers whole, at any contents `V'` that has the input array as
    `V` has it and the output array at what the write-backs leave. -/
theorem arrBufs_of_arrays1 (c : Dev nD) (V' : (b : Ref sig .tc) → Buf (Elt F) ((c : Thread nD τ).loc b))
    (h8 : V' main_v8 = V c main_v8) (h9 : V' main_v9 = (dat1 V c).arrAt 3 cfg1.N) :
    (dat1 V c).arrays ((dat1 V c).arrAt · cfg1.N)
      ⊢ (Pipeline.arrBufs (Ix := Unit) (Name := ℕ) (U := UR sig nD τ) (Lvl := ℕ) spec1 c V' : sProp 𝕄) := by
  unfold Pipeline.arrBufs Dat.arrays
  rw [arrImage1, bigSep_insert (by decide), bigSep_singleton, bigSep_W1]
  rw [show (cfg1.win 0).arr.view.set = Finset.univ from (arr_whole1 0).set_eq_univ,
    show (cfg1.win 3).arr.view.set = Finset.univ from (arr_whole1 3).set_eq_univ]
  rw [h8, h9]
  dsimp only
  rw [(dat1 V c).arrAt_in 0 rfl, (dat1 V c).arrAt_in 1 rfl, (dat1 V c).arrAt_in 2 rfl]
  show (iprop((((c : Thread nD τ).loc main_v8) ↦{fullShare.left} V c main_v8) ∗ (((c : Thread nD τ).loc main_v8) ↦{fullShare.right.left} V c main_v8)
      ∗ (((c : Thread nD τ).loc main_v8) ↦{fullShare.right.right} V c main_v8) ∗ (((c : Thread nD τ).loc main_v9) ↦{fullShare} (dat1 V c).arrAt 3 cfg1.N)) : sProp 𝕄)
    ⊢ iprop((((c : Thread nD τ).loc main_v8) ↦{fullShare} V c main_v8) ∗ (((c : Thread nD τ).loc main_v9) ↦{fullShare} (dat1 V c).arrAt 3 cfg1.N))
  iintro ⟨Ha, Hb1, Hb2, H9⟩
  isplitr [H9]
  · iapply (pointsTo_share (PosShare.mem_left_op_right fullShare)).2
    isplitl [Ha]; · iexact Ha
    iapply (pointsTo_share (PosShare.mem_left_op_right fullShare.right)).2
    isplitl [Hb1]; · iexact Hb1
    iexact Hb2
  iexact H9

end Shares

/-! ## The second call as a segment -/

theorem hrest1 (c : Dev nD) : ∀ b, b ∉ Finset.univ.image (Pipeline.arrRef spec1) → V4 m ρ c b = V3 m ρ c b :=
  fun b hb => W4_of_ne m ρ c b fun e => hb (by rw [arrImage1, e]; decide)

set_option backward.isDefEq.respectTransparency.types false in
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (unscopedBufs (Ix := Unit) (Name := ℕ) (U := UR sig nD τ) (Lvl := ℕ) c (V3 m ρ c) : sProp 𝕄)
        ⊢ iprop((pdats m ρ 1 c).arrays ((pdats m ρ 1 c).arrAt · 0)
            ∗ Pipeline.unscopedRest (Ix := Unit) (Name := ℕ) (U := UR sig nD τ) (Lvl := ℕ) spec1 c (V3 m ρ c)) := by
      rw [Pipeline.unscopedBufs_split₀ (Pipeline.pin (pcfgs (F := F)) adm) 1 winFacts₀1.arr_unscoped c (V3 m ρ c)]
      exact sep_mono (arrays_of_arrBufs1 (V3 m ρ) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
            ∗ Pipeline.unscopedRest (Ix := Unit) (Name := ℕ) (U := UR sig nD τ) (Lvl := ℕ) spec1 c (V3 m ρ c))
        ⊢ (unscopedBufs (Ix := Unit) (Name := ℕ) (U := UR sig nD τ) (Lvl := ℕ) c (V4 m ρ c) : sProp 𝕄) := by
      rw [Pipeline.unscopedBufs_split₀ (Pipeline.pin (pcfgs (F := F)) adm) 1 winFacts₀1.arr_unscoped c (V4 m ρ c)]
      refine sep_mono (arrBufs_of_arrays1 (V3 m ρ) c (V4 m ρ c) (W4_of_ne m ρ c main_v8 (by decide)) (W4_out m ρ c)) (Entails.of_eq ?_)
      unfold Pipeline.unscopedRest
      exact bigSep_congr fun b hb => by rw [hrest1 m ρ c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The whole program as segments, and its run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program from memory `m` with zero counters ends, faulting nowhere, with every
    unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## What the last boundary holds -/

/-- A buffer no item writes holds its launch contents at the end. -/
theorem W4_keep (c : Dev nD) (b : Ref sig .tc) (h4 : b ≠ main_v9) (h3 : b ∉ hostOps1_W) (h2 : ∀ w, Pipeline.arrRef spec0 w ≠ b)
    (h1 : b ∉ hostOps0_W) : W4 m ρ c (Proc.devRef .tc b) = m ((c : Thread nD τ).loc b) :=
  (W4_of_ne m ρ c b h4).trans <| (StableHlo.after_of_writes_sub hostOps1 _ hostOps1_writes h3).trans <|
    (W2_of_ne m ρ c b h2).trans <| (StableHlo.after_of_writes_sub hostOps0 _ hostOps0_writes h1).trans rfl

/-- The program's run with its result named and its arguments unchanged. -/
theorem run_result : θ_run defs (onTc (τ := τ) (main (F := F))) ⟨m, fun _ => 0, ρ⟩ (fun r => ∀ c : Dev nD,
      r.2.mem ((c.tc : Thread nD τ).loc main_v9) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v9 (by decide))).trans (W4_out m ρ c),
     (h c _ (mem_uc main_arg0 (by decide))).trans (W4_keep m ρ c main_arg0 (by decide) (by decide) (by decide) (by decide)),
     (h c _ (mem_uc main_arg1 (by decide))).trans (W4_keep m ρ c main_arg1 (by decide) (by decide) (by decide) (by decide)),
     (h c _ (mem_uc main_arg2 (by decide))).trans (W4_keep m ρ c main_arg2 (by decide) (by decide) (by decide) (by decide)),
     (h c _ (mem_uc main_arg3 (by decide))).trans (W4_keep m ρ c main_arg3 (by decide) (by decide) (by decide) (by decide)),
     (h c _ (mem_uc main_arg4 (by decide))).trans (W4_keep m ρ c main_arg4 (by decide) (by decide) (by decide) (by decide)),
     (h c _ (mem_uc main_arg5 (by decide))).trans (W4_keep m ρ c main_arg5 (by decide) (by decide) (by decide) (by decide)),
     (h c _ (mem_uc main_arg6 (by decide))).trans (W4_keep m ρ c main_arg6 (by decide) (by decide) (by decide) (by decide))⟩)
    (run_all m ρ)

end Cert.KernelIdeal.Hand

end
-- ==== Proof.LibConcat3.lean ====
/-
  Three arrays laid end to end along one axis, the transpose of a matrix, and the regrouping of the leading two axes of
  a rank-3 array into one axis of rows, each read at an index written by coordinates.

  Along the joined axis a position below the first extent lies in the first piece; a position that is the first extent
  plus an offset below the second extent lies in the second piece at that offset; a position that is the first two
  extents plus an offset lies in the third piece.  A transposed matrix at (j, i) is the matrix at (i, j).  Row
  n * b + s of the regrouped array is row s of plane n, because both orders are row-major.
-/
import Idealize.ShloMosaic.Lib.Pipeline.Value
import Idealize.ShloMosaic.Lib.ValueIdx

namespace Cert.LibConcat3

open Idealize.ShloMosaic Idealize.ShloMosaic.ValueIdx

variable {α : Type}

/-! ## Three vectors end to end -/

/-- Three vectors laid end to end, read at a position below the first extent: the first vector there. -/
theorem concat3_vec_apply_fst {b₀ b₁ b₂ b : ℕ} (x₀ : (⟨1, ![b₀]⟩ : Shape).Idx → α) (x₁ : (⟨1, ![b₁]⟩ : Shape).Idx → α)
    (x₂ : (⟨1, ![b₂]⟩ : Shape).Idx → α)
    (h : Shape.Concatenates [(⟨1, ![b₀]⟩ : Shape), ⟨1, ![b₁]⟩, ⟨1, ![b₂]⟩] ⟨1, ![b]⟩ 0)
    (j : Fin b) (c : Fin b₀) (hj : j.val = c.val) :
    concatenate ⟨1, ![b]⟩ 0 [⟨⟨1, ![b₀]⟩, x₀⟩, ⟨⟨1, ![b₁]⟩, x₁⟩, ⟨⟨1, ![b₂]⟩, x₂⟩] h (ix1 j) = x₀ (ix1 c) :=
  concatenate_apply_piece (t := ⟨1, ![b]⟩) 0 [⟨⟨1, ![b₀]⟩, x₀⟩, ⟨⟨1, ![b₁]⟩, x₁⟩, ⟨⟨1, ![b₂]⟩, x₂⟩] h (ix1 j) 0 (by simp) _ x₀ rfl rfl 0 rfl (ix1 c)
    (fun d hd => by match d with | ⟨0, _⟩ => exact absurd rfl hd)
    (by show 0 + c.val = j.val; omega)

/-- Three vectors laid end to end, read at the first extent plus an offset: the second vector at the offset. -/
theorem concat3_vec_apply_snd {b₀ b₁ b₂ b : ℕ} (x₀ : (⟨1, ![b₀]⟩ : Shape).Idx → α) (x₁ : (⟨1, ![b₁]⟩ : Shape).Idx → α)
    (x₂ : (⟨1, ![b₂]⟩ : Shape).Idx → α)
    (h : Shape.Concatenates [(⟨1, ![b₀]⟩ : Shape), ⟨1, ![b₁]⟩, ⟨1, ![b₂]⟩] ⟨1, ![b]⟩ 0)
    (j : Fin b) (c : Fin b₁) (hj : j.val = b₀ + c.val) :
    concatenate ⟨1, ![b]⟩ 0 [⟨⟨1, ![b₀]⟩, x₀⟩, ⟨⟨1, ![b₁]⟩, x₁⟩, ⟨⟨1, ![b₂]⟩, x₂⟩] h (ix1 j) = x₁ (ix1 c) :=
  concatenate_apply_piece (t := ⟨1, ![b]⟩) 0 [⟨⟨1, ![b₀]⟩, x₀⟩, ⟨⟨1, ![b₁]⟩, x₁⟩, ⟨⟨1, ![b₂]⟩, x₂⟩] h (ix1 j) 1 (by simp) _ x₁ rfl rfl b₀ (Nat.add_zero b₀) (ix1 c)
    (fun d hd => by match d with | ⟨0, _⟩ => exact absurd rfl hd)
    (by show b₀ + c.val = j.val; omega)

/-- Three vectors laid end to end, read at the first two extents plus an offset: the third vector at the offset. -/
theorem concat3_vec_apply_thd {b₀ b₁ b₂ b : ℕ} (x₀ : (⟨1, ![b₀]⟩ : Shape).Idx → α) (x₁ : (⟨1, ![b₁]⟩ : Shape).Idx → α)
    (x₂ : (⟨1, ![b₂]⟩ : Shape).Idx → α)
    (h : Shape.Concatenates [(⟨1, ![b₀]⟩ : Shape), ⟨1, ![b₁]⟩, ⟨1, ![b₂]⟩] ⟨1, ![b]⟩ 0)
    (j : Fin b) (c : Fin b₂) (hj : j.val = b₀ + b₁ + c.val) :
    concatenate ⟨1, ![b]⟩ 0 [⟨⟨1, ![b₀]⟩, x₀⟩, ⟨⟨1, ![b₁]⟩, x₁⟩, ⟨⟨1, ![b₂]⟩, x₂⟩] h (ix1 j) = x₂ (ix1 c) :=
  concatenate_apply_piece (t := ⟨1, ![b]⟩) 0 [⟨⟨1, ![b₀]⟩, x₀⟩, ⟨⟨1, ![b₁]⟩, x₁⟩, ⟨⟨1, ![b₂]⟩, x₂⟩] h (ix1 j) 2 (by simp) _ x₂ rfl rfl (b₀ + (b₁ + 0)) rfl (ix1 c)
    (fun d hd => by match d with | ⟨0, _⟩ => exact absurd rfl hd)
    (by show b₀ + (b₁ + 0) + c.val = j.val; omega)

/-! ## Three matrices side by side -/

/-- Three matrices of one height laid side by side, read at a column below the first width: the first matrix there. -/
theorem concat3_cols_apply_fst {a b₀ b₁ b₂ b : ℕ} (x₀ : (⟨2, ![a, b₀]⟩ : Shape).Idx → α)
    (x₁ : (⟨2, ![a, b₁]⟩ : Shape).Idx → α) (x₂ : (⟨2, ![a, b₂]⟩ : Shape).Idx → α)
    (h : Shape.Concatenates [(⟨2, ![a, b₀]⟩ : Shape), ⟨2, ![a, b₁]⟩, ⟨2, ![a, b₂]⟩] ⟨2, ![a, b]⟩ 1)
    (r : Fin a) (j : Fin b) (c : Fin b₀) (hj : j.val = c.val) :
    concatenate ⟨2, ![a, b]⟩ 1 [⟨⟨2, ![a, b₀]⟩, x₀⟩, ⟨⟨2, ![a, b₁]⟩, x₁⟩, ⟨⟨2, ![a, b₂]⟩, x₂⟩] h (ix2 r j)
      = x₀ (ix2 r c) :=
  concatenate_apply_piece (t := ⟨2, ![a, b]⟩) 1 [⟨⟨2, ![a, b₀]⟩, x₀⟩, ⟨⟨2, ![a, b₁]⟩, x₁⟩, ⟨⟨2, ![a, b₂]⟩, x₂⟩] h (ix2 r j) 0 (by simp) _ x₀ rfl rfl 0 rfl (ix2 r c)
    (fun d hd => by match d with | ⟨0, _⟩ => rfl | ⟨1, _⟩ => exact absurd rfl hd)
    (by show 0 + c.val = j.val; omega)

/-- Three matrices of one height laid side by side, read at the first width plus an offset: the second matrix at the
    offset. -/
theorem concat3_cols_apply_snd {a b₀ b₁ b₂ b : ℕ} (x₀ : (⟨2, ![a, b₀]⟩ : Shape).Idx → α)
    (x₁ : (⟨2, ![a, b₁]⟩ : Shape).Idx → α) (x₂ : (⟨2, ![a, b₂]⟩ : Shape).Idx → α)
    (h : Shape.Concatenates [(⟨2, ![a, b₀]⟩ : Shape), ⟨2, ![a, b₁]⟩, ⟨2, ![a, b₂]⟩] ⟨2, ![a, b]⟩ 1)
    (r : Fin a) (j : Fin b) (c : Fin b₁) (hj : j.val = b₀ + c.val) :
    concatenate ⟨2, ![a, b]⟩ 1 [⟨⟨2, ![a, b₀]⟩, x₀⟩, ⟨⟨2, ![a, b₁]⟩, x₁⟩, ⟨⟨2, ![a, b₂]⟩, x₂⟩] h (ix2 r j)
      = x₁ (ix2 r c) :=
  concatenate_apply_piece (t := ⟨2, ![a, b]⟩) 1 [⟨⟨2, ![a, b₀]⟩, x₀⟩, ⟨⟨2, ![a, b₁]⟩, x₁⟩, ⟨⟨2, ![a, b₂]⟩, x₂⟩] h (ix2 r j) 1 (by simp) _ x₁ rfl rfl b₀ (Nat.add_zero b₀) (ix2 r c)
    (fun d hd => by match d with | ⟨0, _⟩ => rfl | ⟨1, _⟩ => exact absurd rfl hd)
    (by show b₀ + c.val = j.val; omega)

/-- Three matrices of one height laid side by side, read at the first two widths plus an offset: the third matrix at
    the offset. -/
theorem concat3_cols_apply_thd {a b₀ b₁ b₂ b : ℕ} (x₀ : (⟨2, ![a, b₀]⟩ : Shape).Idx → α)
    (x₁ : (⟨2, ![a, b₁]⟩ : Shape).Idx → α) (x₂ : (⟨2, ![a, b₂]⟩ : Shape).Idx → α)
    (h : Shape.Concatenates [(⟨2, ![a, b₀]⟩ : Shape), ⟨2, ![a, b₁]⟩, ⟨2, ![a, b₂]⟩] ⟨2, ![a, b]⟩ 1)
    (r : Fin a) (j : Fin b) (c : Fin b₂) (hj : j.val = b₀ + b₁ + c.val) :
    concatenate ⟨2, ![a, b]⟩ 1 [⟨⟨2, ![a, b₀]⟩, x₀⟩, ⟨⟨2, ![a, b₁]⟩, x₁⟩, ⟨⟨2, ![a, b₂]⟩, x₂⟩] h (ix2 r j)
      = x₂ (ix2 r c) :=
  concatenate_apply_piece (t := ⟨2, ![a, b]⟩) 1 [⟨⟨2, ![a, b₀]⟩, x₀⟩, ⟨⟨2, ![a, b₁]⟩, x₁⟩, ⟨⟨2, ![a, b₂]⟩, x₂⟩] h (ix2 r j) 2 (by simp) _ x₂ rfl rfl (b₀ + (b₁ + 0)) rfl (ix2 r c)
    (fun d hd => by match d with | ⟨0, _⟩ => rfl | ⟨1, _⟩ => exact absurd rfl hd)
    (by show b₀ + (b₁ + 0) + c.val = j.val; omega)

/-! ## The transpose of a matrix -/

/-- The transpose of an `[a, b]` matrix reads, at (j, i), the matrix at (i, j). -/
theorem transpose_10_apply {a b : ℕ} (x : (⟨2, ![a, b]⟩ : Shape).Idx → α)
    (h : (⟨2, ![a, b]⟩ : Shape).Transposes [1, 0] ⟨2, ![b, a]⟩) (i : Fin a) (j : Fin b) :
    transpose ⟨2, ![b, a]⟩ [1, 0] x h (ix2 j i) = x (ix2 i j) :=
  transpose_apply [1, 0] x h (ix2 j i) (ix2 i j) fun d => by
    match d with
    | ⟨0, _⟩ => rfl
    | ⟨1, _⟩ => rfl

/-! ## Planes of rows as one run of rows, and back -/

/-- An `[a, b, c]` array regrouped as `[m, c]` reads, at row `n * b + s`, row `s` of plane `n`. -/
theorem shapeCast_planes_rows_apply {a b c m : ℕ} (x : (⟨3, ![a, b, c]⟩ : Shape).Idx → α)
    (h : (⟨3, ![a, b, c]⟩ : Shape).ShapeCasts ⟨2, ![m, c]⟩) (n : Fin a) (s : Fin b) (e : Fin c) (row : Fin m)
    (hrow : row.val = n.val * b + s.val) :
    shapeCast ⟨2, ![m, c]⟩ x h (ix2 row e) = x (ix3 n s e) :=
  shapeCast_apply x h _ _ (by
    rw [Shape.rowMajor_val_three, Shape.rowMajor_val_two]
    show (n.val * b + s.val) * c + e.val = row.val * c + e.val
    rw [hrow])

/-- An `[m, c]` array regrouped as `[a, b, c]` reads, at row `s` of plane `n`, row `n * b + s`. -/
theorem shapeCast_rows_planes_apply {a b c m : ℕ} (y : (⟨2, ![m, c]⟩ : Shape).Idx → α)
    (h : (⟨2, ![m, c]⟩ : Shape).ShapeCasts ⟨3, ![a, b, c]⟩) (n : Fin a) (s : Fin b) (e : Fin c) (row : Fin m)
    (hrow : row.val = n.val * b + s.val) :
    shapeCast ⟨3, ![a, b, c]⟩ y h (ix3 n s e) = y (ix2 row e) :=
  shapeCast_apply y h _ _ (by
    rw [Shape.rowMajor_val_three, Shape.rowMajor_val_two]
    show row.val * c + e.val = (n.val * b + s.val) * c + e.val
    rw [hrow])

end Cert.LibConcat3
-- ==== Proof.HostVal.lean ====
/-
  The array operations the host performs around the two kernel calls, each read at an index written by coordinates.

  Before the first call the three weight matrices are transposed and laid side by side into one [1024, 3072] matrix
  (then narrowed to the kernel's format, which keeps every extended real as it is), the three bias vectors are laid end
  to end into one vector of 3072 entries, and the [4, 2048, 1024] input is regrouped into 8192 rows.  Between the calls
  the 8192 rows of the first result are regrouped into 4 planes of 2048 rows.

  Column f of the joined matrix is row f of the query weights, column 1024 + f row f of the key weights, column
  2048 + f row f of the value weights; entry f, 1024 + f, 2048 + f of the joined vector is entry f of the query, key,
  value bias; row n * 2048 + s of the regrouped input is row s of plane n.
-/
import proofs.«171916_j39848706572604_2_alg».proof.KernelIdeal
import proofs.«171916_j39848706572604_2_alg».proof.Proof.LibConcat3
import Idealize.ShloMosaic.PureOps.Ideal
import Idealize.ShloMosaic.Lib.ValueIdx
import Idealize.ShloMosaic.Lib.Pipeline.Value

noncomputable section

namespace Cert.Attn.HostVal

open Idealize.ShloMosaic Idealize.ShloMosaic.ValueIdx
open Cert.KernelIdeal Cert.KernelIdeal.Facts₀

variable [Cert.KernelIdeal.Facts]

/-! ## The composed arrays -/

/-- A weight matrix transposed. -/
def tr (W : FVec Ideal S1024x1024 .f32) : FVec Ideal S1024x1024 .f32 :=
  transpose S1024x1024 [1, 0] W transposes_S1024x1024_S1024x1024_1_0

/-- Three [1024, 1024] matrices side by side. -/
def cat3W (u₀ u₁ u₂ : FVec Ideal S1024x1024 .f32) : FVec Ideal S1024x3072 .f32 :=
  concatenate S1024x3072 1 [⟨S1024x1024, u₀⟩, ⟨S1024x1024, u₁⟩, ⟨S1024x1024, u₂⟩]
    concatenates_S1024x1024_S1024x1024_S1024x1024_S1024x3072_d1

/-- The joined weights: the three transposes side by side, narrowed. -/
def wcat (Wq Wk Wv : FVec Ideal S1024x1024 .f32) : FVec Ideal S1024x3072 .bf16 :=
  truncf .bf16 (cat3W (tr Wq) (tr Wk) (tr Wv)) bitsLt_bf16_f32

/-- The joined biases: the three vectors end to end. -/
def bcat (bq bk bv : FVec Ideal S1024 .f32) : FVec Ideal S3072 .f32 :=
  concatenate S3072 0 [⟨S1024, bq⟩, ⟨S1024, bk⟩, ⟨S1024, bv⟩] concatenates_S1024_S1024_S1024_S3072_d0

/-- The input's planes of rows as one run of rows. -/
def rows (x : FVec Ideal S4x2048x1024 .f32) : FVec Ideal S8192x1024 .f32 :=
  shapeCast S8192x1024 x shapeCasts_S4x2048x1024_S8192x1024

/-- A run of rows as planes of rows. -/
def unrows (y : FVec Ideal S8192x3072 .bf16) : FVec Ideal S4x2048x3072 .bf16 :=
  shapeCast S4x2048x3072 y shapeCasts_S8192x3072_S4x2048x3072

/-! ## Each is the composition of the operations' functions -/

theorem tr_eq (W : FVec Ideal S1024x1024 .f32) :
    tr W = ((transpose S1024x1024 [1, 0] · transposes_S1024x1024_S1024x1024_1_0) :
      (⟨S1024x1024, .f32⟩ : BufTy).Contents (Elt Ideal) → (⟨S1024x1024, .f32⟩ : BufTy).Contents (Elt Ideal)) W := rfl

theorem wcat_eq (Wq Wk Wv : FVec Ideal S1024x1024 .f32) :
    wcat Wq Wk Wv
      = truncf .bf16
          (concatenate S1024x3072 1
            [⟨S1024x1024, transpose S1024x1024 [1, 0] Wq transposes_S1024x1024_S1024x1024_1_0⟩,
             ⟨S1024x1024, transpose S1024x1024 [1, 0] Wk transposes_S1024x1024_S1024x1024_1_0⟩,
             ⟨S1024x1024, transpose S1024x1024 [1, 0] Wv transposes_S1024x1024_S1024x1024_1_0⟩]
            concatenates_S1024x1024_S1024x1024_S1024x1024_S1024x3072_d1)
          bitsLt_bf16_f32 := rfl

theorem wcat_eq_ops (Wq Wk Wv : FVec Ideal S1024x1024 .f32) :
    wcat Wq Wk Wv
      = ((truncf (F := Ideal) .bf16 · bitsLt_bf16_f32) :
          (⟨S1024x3072, .f32⟩ : BufTy).Contents (Elt Ideal) → (⟨S1024x3072, .bf16⟩ : BufTy).Contents (Elt Ideal))
        ((fun u : Fin 3 → FVec Ideal S1024x1024 .f32 =>
            concatenate S1024x3072 1 [⟨S1024x1024, u 0⟩, ⟨S1024x1024, u 1⟩, ⟨S1024x1024, u 2⟩]
              concatenates_S1024x1024_S1024x1024_S1024x1024_S1024x3072_d1)
          ![tr Wq, tr Wk, tr Wv]) := rfl

theorem bcat_eq_ops (bq bk bv : FVec Ideal S1024 .f32) :
    bcat bq bk bv
      = (fun u : Fin 3 → FVec Ideal S1024 .f32 =>
          concatenate S3072 0 [⟨S1024, u 0⟩, ⟨S1024, u 1⟩, ⟨S1024, u 2⟩] concatenates_S1024_S1024_S1024_S3072_d0)
        ![bq, bk, bv] := rfl

theorem rows_eq (x : FVec Ideal S4x2048x1024 .f32) :
    rows x = shapeCast S8192x1024 x shapeCasts_S4x2048x1024_S8192x1024 := rfl

theorem unrows_eq (y : FVec Ideal S8192x3072 .bf16) :
    unrows y = shapeCast S4x2048x3072 y shapeCasts_S8192x3072_S4x2048x3072 := rfl

/-! ## The joined weights at an index -/

/-- Column f of the joined weights is row f of the query weights. -/
theorem wcat_q (Wq Wk Wv : FVec Ideal S1024x1024 .f32) (e f : Fin 1024) :
    wcat Wq Wk Wv (ix2 e (⟨f.val, by omega⟩ : Fin 3072)) = Wq (ix2 f e) :=
  (Cert.LibConcat3.concat3_cols_apply_fst (tr Wq) (tr Wk) (tr Wv)
      concatenates_S1024x1024_S1024x1024_S1024x1024_S1024x3072_d1 e _ f rfl).trans
    (Cert.LibConcat3.transpose_10_apply Wq transposes_S1024x1024_S1024x1024_1_0 f e)

/-- Column 1024 + f of the joined weights is row f of the key weights. -/
theorem wcat_k (Wq Wk Wv : FVec Ideal S1024x1024 .f32) (e f : Fin 1024) :
    wcat Wq Wk Wv (ix2 e (⟨1024 + f.val, by omega⟩ : Fin 3072)) = Wk (ix2 f e) :=
  (Cert.LibConcat3.concat3_cols_apply_snd (tr Wq) (tr Wk) (tr Wv)
      concatenates_S1024x1024_S1024x1024_S1024x1024_S1024x3072_d1 e _ f rfl).trans
    (Cert.LibConcat3.transpose_10_apply Wk transposes_S1024x1024_S1024x1024_1_0 f e)

/-- Column 2048 + f of the joined weights is row f of the value weights. -/
theorem wcat_v (Wq Wk Wv : FVec Ideal S1024x1024 .f32) (e f : Fin 1024) :
    wcat Wq Wk Wv (ix2 e (⟨2048 + f.val, by omega⟩ : Fin 3072)) = Wv (ix2 f e) :=
  (Cert.LibConcat3.concat3_cols_apply_thd (tr Wq) (tr Wk) (tr Wv)
      concatenates_S1024x1024_S1024x1024_S1024x1024_S1024x3072_d1 e _ f rfl).trans
    (Cert.LibConcat3.transpose_10_apply Wv transposes_S1024x1024_S1024x1024_1_0 f e)

/-! ## The joined biases at an index -/

/-- Entry f of the joined biases is entry f of the query bias. -/
theorem bcat_q (bq bk bv : FVec Ideal S1024 .f32) (f : Fin 1024) :
    bcat bq bk bv (ix1 (⟨f.val, by omega⟩ : Fin 3072)) = bq (ix1 f) :=
  Cert.LibConcat3.concat3_vec_apply_fst bq bk bv concatenates_S1024_S1024_S1024_S3072_d0 _ f rfl

/-- Entry 1024 + f of the joined biases is entry f of the key bias. -/
theorem bcat_k (bq bk bv : FVec Ideal S1024 .f32) (f : Fin 1024) :
    bcat bq bk bv (ix1 (⟨1024 + f.val, by omega⟩ : Fin 3072)) = bk (ix1 f) :=
  Cert.LibConcat3.concat3_vec_apply_snd bq bk bv concatenates_S1024_S1024_S1024_S3072_d0 _ f rfl

/-- Entry 2048 + f of the joined biases is entry f of the value bias. -/
theorem bcat_v (bq bk bv : FVec Ideal S1024 .f32) (f : Fin 1024) :
    bcat bq bk bv (ix1 (⟨2048 + f.val, by omega⟩ : Fin 3072)) = bv (ix1 f) :=
  Cert.LibConcat3.concat3_vec_apply_thd bq bk bv concatenates_S1024_S1024_S1024_S3072_d0 _ f rfl

/-! ## The regroupings at an index -/

/-- Row n * 2048 + s of the regrouped input is row s of plane n. -/
theorem rows_apply (x : FVec Ideal S4x2048x1024 .f32) (n : Fin 4) (s : Fin 2048) (e : Fin 1024) :
    rows x (ix2 (⟨n.val * 2048 + s.val, by omega⟩ : Fin 8192) e) = x (ix3 n s e) :=
  Cert.LibConcat3.shapeCast_planes_rows_apply x shapeCasts_S4x2048x1024_S8192x1024 n s e _ rfl

/-- Row s of plane n of the regrouped result is row n * 2048 + s. -/
theorem unrows_apply (y : FVec Ideal S8192x3072 .bf16) (n : Fin 4) (s : Fin 2048) (col : Fin 3072) :
    unrows y (ix3 n s col) = y (ix2 (⟨n.val * 2048 + s.val, by omega⟩ : Fin 8192) col) :=
  Cert.LibConcat3.shapeCast_rows_planes_apply y shapeCasts_S8192x3072_S4x2048x3072 n s col _ rfl

end Cert.Attn.HostVal

end
-- ==== Proof.HostRun.lean ====
/-
  What the host's operations leave in the kernels' operand buffers, from any contents of the argument buffers.

  After the operations before the first call, the weights operand holds the three transposed weight matrices side by
  side, the bias operand the three bias vectors end to end, and the rows operand the input regrouped into rows; after
  the operation between the calls, the second call's operand holds the first result regrouped into planes.
-/
import proofs.«171916_j39848706572604_2_alg».proof.Proof.Gen.KernelIdeal.Launch
import proofs.«171916_j39848706572604_2_alg».proof.Proof.HostVal
import Idealize.ShloMosaic.Lib.StableHlo.Run

noncomputable section

namespace Cert.Attn.HostRun

open Idealize.ShloMosaic Idealize.ShloMosaic.StableHlo
open Cert.KernelIdeal Cert.KernelIdeal.Gen Cert.Attn.HostVal

/-- The rows operand after the first stretch: the input regrouped into rows. -/
theorem after0_v6 (V : Valuation τ sig (Elt Ideal)) :
    after (hostOps0 (F := Ideal)) V (Proc.devRef .tc main_v6) = rows (V (Proc.devRef .tc main_arg0)) := by
  after_results
  rfl

/-- The bias operand after the first stretch: the three bias vectors end to end. -/
theorem after0_v5 (V : Valuation τ sig (Elt Ideal)) :
    after (hostOps0 (F := Ideal)) V (Proc.devRef .tc main_v5)
      = bcat (V (Proc.devRef .tc main_arg2)) (V (Proc.devRef .tc main_arg4)) (V (Proc.devRef .tc main_arg6)) := by
  after_results
  rfl

/-- The weights operand after the first stretch: the three transposed weight matrices side by side. -/
theorem after0_v4 (V : Valuation τ sig (Elt Ideal)) :
    after (hostOps0 (F := Ideal)) V (Proc.devRef .tc main_v4)
      = wcat (V (Proc.devRef .tc main_arg1)) (V (Proc.devRef .tc main_arg3)) (V (Proc.devRef .tc main_arg5)) := by
  after_results
  rfl

/-- The second call's operand after the second stretch: the first result regrouped into planes. -/
theorem after1_v8 (V : Valuation τ sig (Elt Ideal)) :
    after (hostOps1 (F := Ideal)) V (Proc.devRef .tc main_v8) = unrows (V (Proc.devRef .tc main_v7)) := by
  after_results
  rfl

end Cert.Attn.HostRun

end
-- ==== Proof.Spec.lean ====
/-
  Scaled dot-product attention over projected queries, keys and values, as one function of the seven argument arrays.

  For a batch entry `n`, a row `s` and a feature `f` the projection of `x` by a weight matrix `W` and a bias `b` is
  `∑ e, x[n, s, e] · W[f, e] + b[f]`.  The score of query row `i` against key row `j` is the dot product of the two
  projected rows scaled by the value of the word `0x3D000000` (one thirty-second).  Each row of scores is normalised
  by a softmax whose maximum is a fold of `max` from the value of the word `0xFF800000` (`−∞`), and the result is the
  sum over the key rows of the normalised scores times the projected values.  Everything is on the extended reals.
-/
import Idealize.ShloMosaic.PureOps.Ideal
import Idealize.ShloMosaic.Lib.ValueIdx

noncomputable section

namespace Cert.Attn

open Idealize.ShloMosaic Idealize.ShloMosaic.ValueIdx

/-- The three shapes of the arguments. -/
abbrev SX : Shape := ⟨3, ![4, 2048, 1024]⟩
abbrev SW : Shape := ⟨2, ![1024, 1024]⟩
abbrev SB : Shape := ⟨1, ![1024]⟩

/-- The projection `x · Wᵀ + b` at batch entry `n`, row `s`, feature `f`. -/
def proj (x : SX.Idx → EReal) (W : SW.Idx → EReal) (b : SB.Idx → EReal) (n : Fin 4) (s : Fin 2048) (f : Fin 1024) : EReal :=
  (∑ e : Fin 1024, x (ix3 n s e) * W (ix2 f e)) + b (ix1 f)

/-- The scale of the scores: the value of the word `0x3D000000`. -/
def scale : EReal := Ideal.ofBits .f32 0x3D000000#32

/-- The scaled score of query row `i` against key row `j` in batch entry `n`. -/
def score (q k : Fin 4 → Fin 2048 → Fin 1024 → EReal) (n : Fin 4) (i j : Fin 2048) : EReal :=
  (∑ e : Fin 1024, q n i e * k n j e) * scale

/-- The maximum of a row, folded from the value of the word `0xFF800000`. -/
def rowMax {n : ℕ} (L : Fin n → EReal) : EReal := Finset.univ.fold max (Ideal.ofBits .f32 0xFF800000#32) L

/-- The softmax of a row `L` at position `t`. -/
def softmaxRow {n : ℕ} (L : Fin n → EReal) (t : Fin n) : EReal :=
  Ideal.div (Ideal.exp (L t - rowMax L)) (∑ u : Fin n, Ideal.exp (L u - rowMax L))

/-- The attention output at batch entry `n`, query row `i`, feature `e`, from projected queries, keys and values. -/
def attend (q k v : Fin 4 → Fin 2048 → Fin 1024 → EReal) (n : Fin 4) (i : Fin 2048) (e : Fin 1024) : EReal :=
  ∑ j : Fin 2048, softmaxRow (fun j' => score q k n i j') j * v n j e

/-- The whole computation at coordinates. -/
def outAt (x : SX.Idx → EReal) (Wq : SW.Idx → EReal) (bq : SB.Idx → EReal) (Wk : SW.Idx → EReal) (bk : SB.Idx → EReal)
    (Wv : SW.Idx → EReal) (bv : SB.Idx → EReal) (n : Fin 4) (i : Fin 2048) (e : Fin 1024) : EReal :=
  attend (proj x Wq bq) (proj x Wk bk) (proj x Wv bv) n i e

/-- The whole computation as an array. -/
def G (x : SX.Idx → EReal) (Wq : SW.Idx → EReal) (bq : SB.Idx → EReal) (Wk : SW.Idx → EReal) (bk : SB.Idx → EReal)
    (Wv : SW.Idx → EReal) (bv : SB.Idx → EReal) : SX.Idx → EReal :=
  fun i => outAt x Wq bq Wk bk Wv bv (i 0) (i 1) (i 2)

theorem G_apply (x : SX.Idx → EReal) (Wq : SW.Idx → EReal) (bq : SB.Idx → EReal) (Wk : SW.Idx → EReal) (bk : SB.Idx → EReal)
    (Wv : SW.Idx → EReal) (bv : SB.Idx → EReal) (n : Fin 4) (i : Fin 2048) (e : Fin 1024) :
    G x Wq bq Wk bk Wv bv (ix3 n i e) = outAt x Wq bq Wk bk Wv bv n i e := rfl

end Cert.Attn

end
-- ==== Proof.QkvVal.lean ====
/-
  The first kernel's result, regrouped into planes, is the three projections side by side.

  If every entry of a [8192, 3072] array is the dot product of a row of the regrouped input with a column of the joined
  weights plus the joined bias at that column, then after the rows are regrouped into 4 planes of 2048 rows, column f of
  row s of plane n is the query projection at (n, s, f), column 1024 + f the key projection and column 2048 + f the
  value projection: the joined weights' column is the matching weight matrix's row f, the joined bias's entry the
  matching bias's entry f, and row n * 2048 + s of the regrouped input is row s of plane n.
-/
import proofs.«171916_j39848706572604_2_alg».proof.Proof.Spec
import proofs.«171916_j39848706572604_2_alg».proof.Proof.HostVal

noncomputable section

namespace Cert.Attn.QkvVal

open Idealize.ShloMosaic Idealize.ShloMosaic.ValueIdx
open Cert.KernelIdeal Cert.Attn.HostVal

variable [Cert.KernelIdeal.Facts]

/-- Column f of the regrouped result is the query projection. -/
theorem unrows_q (x : FVec Ideal S4x2048x1024 .f32) (Wq Wk Wv : FVec Ideal S1024x1024 .f32)
    (bq bk bv : FVec Ideal S1024 .f32) (Y : FVec Ideal S8192x3072 .bf16)
    (hY : ∀ (row : Fin 8192) (col : Fin 3072), Y (ix2 row col)
      = (∑ e : Fin 1024, rows x (ix2 row e) * wcat Wq Wk Wv (ix2 e col)) + bcat bq bk bv (ix1 col))
    (n : Fin 4) (s : Fin 2048) (f : Fin 1024) :
    unrows Y (ix3 n s (⟨f.val, by omega⟩ : Fin 3072)) = Cert.Attn.proj x Wq bq n s f := by
  rw [unrows_apply, hY, bcat_q]
  unfold Cert.Attn.proj
  refine congrArg (· + bq (ix1 f)) (Finset.sum_congr rfl fun e _ => ?_)
  rw [rows_apply, wcat_q]

/-- Column 1024 + f of the regrouped result is the key projection. -/
theorem unrows_k (x : FVec Ideal S4x2048x1024 .f32) (Wq Wk Wv : FVec Ideal S1024x1024 .f32)
    (bq bk bv : FVec Ideal S1024 .f32) (Y : FVec Ideal S8192x3072 .bf16)
    (hY : ∀ (row : Fin 8192) (col : Fin 3072), Y (ix2 row col)
      = (∑ e : Fin 1024, rows x (ix2 row e) * wcat Wq Wk Wv (ix2 e col)) + bcat bq bk bv (ix1 col))
    (n : Fin 4) (s : Fin 2048) (f : Fin 1024) :
    unrows Y (ix3 n s (⟨1024 + f.val, by omega⟩ : Fin 3072)) = Cert.Attn.proj x Wk bk n s f := by
  rw [unrows_apply, hY, bcat_k]
  unfold Cert.Attn.proj
  refine congrArg (· + bk (ix1 f)) (Finset.sum_congr rfl fun e _ => ?_)
  rw [rows_apply, wcat_k]

/-- Column 2048 + f of the regrouped result is the value projection. -/
theorem unrows_v (x : FVec Ideal S4x2048x1024 .f32) (Wq Wk Wv : FVec Ideal S1024x1024 .f32)
    (bq bk bv : FVec Ideal S1024 .f32) (Y : FVec Ideal S8192x3072 .bf16)
    (hY : ∀ (row : Fin 8192) (col : Fin 3072), Y (ix2 row col)
      = (∑ e : Fin 1024, rows x (ix2 row e) * wcat Wq Wk Wv (ix2 e col)) + bcat bq bk bv (ix1 col))
    (n : Fin 4) (s : Fin 2048) (f : Fin 1024) :
    unrows Y (ix3 n s (⟨2048 + f.val, by omega⟩ : Fin 3072)) = Cert.Attn.proj x Wv bv n s f := by
  rw [unrows_apply, hY, bcat_v]
  unfold Cert.Attn.proj
  refine congrArg (· + bv (ix1 f)) (Finset.sum_congr rfl fun e _ => ?_)
  rw [rows_apply, wcat_v]

end Cert.Attn.QkvVal

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.PayProj.lean ====
/-
  The projection body read at an index, on the extended reals: a matrix product of the rows of `x` with the columns
  of `w` into a zero accumulator, plus the bias of the column.  Format changes are the identity there.
-/
import proofs.«171916_j39848706572604_2_alg».proof.Proof.Gen.KernelIdeal.Skeleton
import proofs.«171916_j39848706572604_2_alg».proof.Proof.Spec
import proofs.«171916_j39848706572604_2_alg».proof.Proof.LibLayout
import Idealize.ShloMosaic.Lib.ValueIdx
import Idealize.ShloMosaic.Lib.ValueLayout
import Idealize.ShloMosaic.Lib.Pipeline.Value

namespace Cert.Attn.Pay

open Idealize.ShloMosaic Idealize.ShloMosaic.ValueIdx Cert.KernelIdeal

/-- The left operand's free axis of the projection's product is the result's row. -/
theorem dotProj_lhs0 (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide),
    dif_pos (show (0 : Fin S512x1024.rank) ∈ dot_S512x1024_S1024x3072_S512x3072_1_0_0_1_n_n.lhsNonContracting by decide)]
  rfl

/-- The right operand's free axis of the projection's product is the result's column. -/
theorem dotProj_rhs1 (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide),
    dif_pos (show (1 : Fin S1024x3072.rank) ∈ dot_S512x1024_S1024x3072_S512x3072_1_0_0_1_n_n.rhsNonContracting by decide)]
  rfl

/-- The projection body at row `r`, column `j`: the dot product of row `r` of `x` with column `j` of `w`, plus
    the bias at `j`. -/
theorem proj_apply (x : Vec Ideal S512x1024 .f32) (w : Vec Ideal S1024x3072 .bf16) (b : Vec Ideal S3072 .f32)
    (r : Fin 512) (j : Fin 3072) :
    Cert.KernelIdeal.Gen.k0_pay1 (F := Ideal) x w b (ix2 r j)
      = (∑ e : Fin 1024, x (ix2 r e) * w (ix2 e j)) + b (ix1 j) := by
  unfold Cert.KernelIdeal.Gen.k0_pay1
  refine (truncf_apply (ψ := .bf16) (φ := .f32) _ Gen.bitsLt_bf16_f32 (ix2 r j)).trans ?_
  refine (addf_apply (φ := .f32) _ _ (ix2 r j)).trans ?_
  refine congrArg₂ (· + ·) ?_ ?_
  · refine (Cert.LibLayout.matmul_rows_cols_apply dot_S512x1024_S1024x3072_S512x3072_1_0_0_1_n_n rfl rfl rfl rfl
      dotProj_lhs0 dotProj_rhs1 none _ _ r j).trans ?_
    refine Finset.sum_congr rfl fun e _ => ?_
    refine congrArg₂ (· * ·) ?_ ?_
    · refine (truncf_apply (ψ := .bf16) (φ := .f32) _ Gen.bitsLt_bf16_f32 (ix2 r e)).trans ?_
      exact congrFun (shapeCast_self x _) _
    · exact congrFun (shapeCast_self w _) _
  · refine (Cert.LibLayout.rowBias_apply _ _ _ r j).trans ?_
    exact congrFun (shapeCast_self b _) _

end Cert.Attn.Pay
-- ==== Proof.LibAttnLayout.lean ====
/-
  A softmax over the rows of a matrix of extended reals, read at an index written by coordinates.

  A vector `[a]` laid as a column and repeated along the rows of `[a, b]`; the exponential of a matrix less its row
  maxima; and that exponential divided by its row sums, which is the softmax of each row.
-/
import proofs.«171916_j39848706572604_2_alg».proof.Proof.Spec
import proofs.«171916_j39848706572604_2_alg».proof.Proof.LibLayout
import Idealize.ShloMosaic.Lib.ValueIdx
import Idealize.ShloMosaic.Lib.ValueLayout
import Idealize.ShloMosaic.Lib.Pipeline.Value

namespace Cert.LibAttnLayout

open Idealize.ShloMosaic Idealize.ShloMosaic.ValueIdx

/-- An exponential at an index is the exponential of the element. -/
theorem exp_apply {s : Shape} {φ : FTy} (x : FVec Ideal s φ) (i : s.Idx) : exp x i = Ideal.exp (x i) := rfl

/-- A vector `[a]` laid as the column `[a, 1]` and repeated along the rows of `[a, b]` reads, at `(r, t)`, the
    vector at `r`. -/
theorem colBroadcast_apply {α : Type} {a b : ℕ} (v : (⟨1, ![a]⟩ : Shape).Idx → α)
    (hcast : (⟨1, ![a]⟩ : Shape).ShapeCasts ⟨2, ![a, 1]⟩) (hbc : (⟨2, ![a, 1]⟩ : Shape).Broadcasts ⟨2, ![a, b]⟩)
    (r : Fin a) (t : Fin b) :
    broadcastTo ⟨2, ![a, b]⟩ (shapeCast ⟨2, ![a, 1]⟩ v hcast) hbc (ix2 r t) = v (ix1 r) :=
  (Cert.LibLayout.broadcastTo_a1_ab_apply _ hbc r t).trans (Cert.LibLayout.shapeCast_a_a1_apply v hcast r 0)

/-- The exponential of a matrix less its row maxima reads, at `(r, u)`, the exponential of the entry less the
    maximum of row `r`. -/
theorem expShift_apply {a b : ℕ} (L : FVec Ideal ⟨2, ![a, b]⟩ .f32)
    (hred : (⟨2, ![a, b]⟩ : Shape).Reduces [1] ⟨1, ![a]⟩)
    (hcast : (⟨1, ![a]⟩ : Shape).ShapeCasts ⟨2, ![a, 1]⟩) (hbc : (⟨2, ![a, 1]⟩ : Shape).Broadcasts ⟨2, ![a, b]⟩)
    (hφ : FKind.Formats FTy.f32) (hm : (0xFF800000#32 : BitVec 32) = 0xFF800000#32) (r : Fin a) (u : Fin b) :
    exp (subf L (broadcastTo ⟨2, ![a, b]⟩ (shapeCast ⟨2, ![a, 1]⟩
        (multiReduction .maximumf [1] ⟨1, ![a]⟩ L 0xFF800000#32 hred hφ hm) hcast) hbc)) (ix2 r u)
      = Ideal.exp (L (ix2 r u) - Cert.Attn.rowMax (fun u' => L (ix2 r u'))) := by
  refine (exp_apply _ _).trans (congrArg Ideal.exp ?_)
  refine (subf_apply _ _ _).trans (congrArg (L (ix2 r u) - ·) ?_)
  refine (colBroadcast_apply _ hcast hbc r u).trans ?_
  exact Cert.LibLayout.max_rows_apply L hred hφ hm r

/-- The exponential of a matrix less its row maxima, divided by its own row sums, reads at `(r, t)` the softmax of
    row `r` at `t`. -/
theorem softmax_rows_apply {a b : ℕ} (L : FVec Ideal ⟨2, ![a, b]⟩ .f32)
    (hred : (⟨2, ![a, b]⟩ : Shape).Reduces [1] ⟨1, ![a]⟩)
    (hcast : (⟨1, ![a]⟩ : Shape).ShapeCasts ⟨2, ![a, 1]⟩) (hbc : (⟨2, ![a, 1]⟩ : Shape).Broadcasts ⟨2, ![a, b]⟩)
    (hφ : FKind.Formats FTy.f32) (hm : (0xFF800000#32 : BitVec 32) = 0xFF800000#32)
    (hz : (0x00000000#32 : BitVec 32) = 0x00000000#32) (r : Fin a) (t : Fin b) :
    divf
      (exp (subf L (broadcastTo ⟨2, ![a, b]⟩ (shapeCast ⟨2, ![a, 1]⟩
        (multiReduction .maximumf [1] ⟨1, ![a]⟩ L 0xFF800000#32 hred hφ hm) hcast) hbc)))
      (broadcastTo ⟨2, ![a, b]⟩ (shapeCast ⟨2, ![a, 1]⟩
        (multiReduction .add [1] ⟨1, ![a]⟩
          (exp (subf L (broadcastTo ⟨2, ![a, b]⟩ (shapeCast ⟨2, ![a, 1]⟩
            (multiReduction .maximumf [1] ⟨1, ![a]⟩ L 0xFF800000#32 hred hφ hm) hcast) hbc)))
          0x00000000#32 hred hφ hz) hcast) hbc) (ix2 r t)
      = Cert.Attn.softmaxRow (fun u => L (ix2 r u)) t := by
  refine (divf_apply _ _ _).trans ?_
  unfold Cert.Attn.softmaxRow
  refine congrArg₂ Ideal.div (expShift_apply L hred hcast hbc hφ hm r t) ?_
  refine (colBroadcast_apply _ hcast hbc r t).trans ?_
  refine (Cert.LibLayout.sum_rows_apply _ hred hφ hz r).trans ?_
  exact Finset.sum_congr rfl fun u _ => expShift_apply L hred hcast hbc hφ hm r u

end Cert.LibAttnLayout
-- ==== Proof.PayAttn.lean ====
/-
  The attention body read at an index, on the extended reals: the scores of a query row against every key row (a
  matrix product with the transposed keys, scaled), their softmax along the row, and the product of the normalised
  scores with the values.  Format changes are the identity there.
-/
import proofs.«171916_j39848706572604_2_alg».proof.Proof.Gen.KernelIdeal.Skeleton
import proofs.«171916_j39848706572604_2_alg».proof.Proof.Spec
import proofs.«171916_j39848706572604_2_alg».proof.Proof.LibLayout
import proofs.«171916_j39848706572604_2_alg».proof.Proof.LibAttnLayout
import Idealize.ShloMosaic.Lib.ValueIdx
import Idealize.ShloMosaic.Lib.ValueLayout
import Idealize.ShloMosaic.Lib.Pipeline.Value

namespace Cert.Attn.Pay

open Idealize.ShloMosaic Idealize.ShloMosaic.ValueIdx Cert.KernelIdeal

/-- The left operand's free axis of the scores' product is the result's row. -/
theorem dotQK_lhs0 (i : S512x2048.Idx) (q : dot_S512x1024_S1024x2048_S512x2048_1_0_0_1_n_n.contr.Idx) :
    (dot_S512x1024_S1024x2048_S512x2048_1_0_0_1_n_n.lhsIdx i q 0).val = (i 0).val := by
  unfold DotDims.lhsIdx
  rw [dif_neg (show ¬(0 : Fin S512x1024.rank) ∈ dot_S512x1024_S1024x2048_S512x2048_1_0_0_1_n_n.lhsBatch by decide),
    dif_pos (show (0 : Fin S512x1024.rank) ∈ dot_S512x1024_S1024x2048_S512x2048_1_0_0_1_n_n.lhsNonContracting by decide)]
  rfl

/-- The right operand's free axis of the scores' product is the result's column. -/
theorem dotQK_rhs1 (i : S512x2048.Idx) (q : dot_S512x1024_S1024x2048_S512x2048_1_0_0_1_n_n.contr.Idx) :
    (dot_S512x1024_S1024x2048_S512x2048_1_0_0_1_n_n.rhsIdx i q 1).val = (i 1).val := by
  unfold DotDims.rhsIdx
  rw [dif_neg (show ¬(1 : Fin S1024x2048.rank) ∈ dot_S512x1024_S1024x2048_S512x2048_1_0_0_1_n_n.rhsBatch by decide),
    dif_pos (show (1 : Fin S1024x2048.rank) ∈ dot_S512x1024_S1024x2048_S512x2048_1_0_0_1_n_n.rhsNonContracting by decide)]
  rfl

/-- The left operand's free axis of the product with the values is the result's row. -/
theorem dotPV_lhs0 (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide),
    dif_pos (show (0 : Fin S512x2048.rank) ∈ dot_S512x2048_S2048x1024_S512x1024_1_0_0_1_n_n.lhsNonContracting by decide)]
  rfl

/-- The right operand's free axis of the product with the values is the result's column. -/
theorem dotPV_rhs1 (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide),
    dif_pos (show (1 : Fin S2048x1024.rank) ∈ dot_S512x2048_S2048x1024_S512x1024_1_0_0_1_n_n.rhsNonContracting by decide)]
  rfl

/-- The scaled scores at query row `i`, key row `j`: the dot product of the two rows times the scale. -/
theorem scores_apply (q : Vec Ideal S1x512x1024 .bf16) (k : Vec Ideal S1x2048x1024 .bf16)
    (hq : S1x512x1024.ShapeCasts S512x1024) (hk : S1x2048x1024.ShapeCasts S2048x1024)
    (ht : S2048x1024.Transposes [1, 0] S1024x2048) (i : Fin 512) (j : Fin 2048) :
    mulf (matmul (φ₁ := .bf16) (φ₂ := .bf16) dot_S512x1024_S1024x2048_S512x2048_1_0_0_1_n_n none
        (shapeCast S512x1024 q hq : FVec Ideal S512x1024 .bf16)
        (transpose S1024x2048 [1, 0] (shapeCast S2048x1024 k hk : FVec Ideal S2048x1024 .bf16) ht : FVec Ideal S1024x2048 .bf16)
        (constant (F := Ideal) S512x2048 .f32 0x00000000#32))
      (broadcast S512x2048 (Scalar.ofBits (F := Ideal) .f32 0x3D000000#32)) (ix2 i j)
      = (∑ e' : Fin 1024, q (ix3 (0 : Fin 1) i e') * k (ix3 (0 : Fin 1) j e')) * Cert.Attn.scale := by
  refine (mulf_apply (φ := .f32) _ _ (ix2 i j)).trans ?_
  refine congrArg₂ (· * ·) ?_ rfl
  refine (Cert.LibLayout.matmul_rows_cols_apply dot_S512x1024_S1024x2048_S512x2048_1_0_0_1_n_n rfl rfl rfl rfl
    dotQK_lhs0 dotQK_rhs1 none _ _ i j).trans ?_
  refine Finset.sum_congr rfl fun e' _ => ?_
  refine congrArg₂ (· * ·) ?_ ?_
  · exact shapeCast_1ab_ab_apply q hq i e'
  · refine (transpose_ix2_apply _ ht e' j).trans ?_
    exact shapeCast_1ab_ab_apply k hk j e'

/-- The attention body at query row `i`, feature `e`: the sum over the key rows of the softmax of the row of scaled
    scores times the value. -/
theorem attn_apply (q : Vec Ideal S1x512x1024 .bf16) (k v : Vec Ideal S1x2048x1024 .bf16) (i : Fin 512) (e : Fin 1024) :
    Cert.KernelIdeal.Gen.k1_pay1 (F := Ideal) q k v (ix3 (0 : Fin 1) i e)
      = ∑ j : Fin 2048, Cert.Attn.softmaxRow (fun j' : Fin 2048 =>
          (∑ e' : Fin 1024, q (ix3 (0 : Fin 1) i e') * k (ix3 (0 : Fin 1) j' e')) * Cert.Attn.scale) j
          * v (ix3 (0 : Fin 1) j e) := by
  unfold Cert.KernelIdeal.Gen.k1_pay1
  refine (shapeCast_ab_1ab_apply _ _ (0 : Fin 1) i e).trans ?_
  refine (Cert.LibLayout.matmul_rows_cols_apply dot_S512x2048_S2048x1024_S512x1024_1_0_0_1_n_n rfl rfl rfl rfl
    dotPV_lhs0 dotPV_rhs1 none _ _ i e).trans ?_
  refine Finset.sum_congr rfl fun j _ => ?_
  refine congrArg₂ (· * ·) ?_ ?_
  · refine (truncf_apply (ψ := .bf16) (φ := .f32) _ Gen.bitsLt_bf16_f32 (ix2 i j)).trans ?_
    refine (Cert.LibAttnLayout.softmax_rows_apply _ _ _ _ _ _ _ i j).trans ?_
    refine congrArg (fun L => Cert.Attn.softmaxRow L j) (funext fun j' => ?_)
    exact scores_apply q k _ _ _ i j'
  · exact shapeCast_1ab_ab_apply v _ j e

end Cert.Attn.Pay
-- ==== Proof.KVal.lean ====
/-
  From blocks to the array, for the two kernel calls on the extended reals.

  Each grid point writes back one block of its output array; the block is the body's value computed from the input
  windows' blocks at that point, and those blocks are read off the arrays the call finds.  The output's blocks tile its
  array, so after the last point the array holds one function of the arrays the call finds, index by index: for the
  projection call the dot product of a row with a column plus the column's bias; for the attention call the softmax of
  a row of scaled scores against the values.
-/
import proofs.«171916_j39848706572604_2_alg».proof.Proof.IData
import proofs.«171916_j39848706572604_2_alg».proof.Proof.PayProj
import proofs.«171916_j39848706572604_2_alg».proof.Proof.PayAttn
import proofs.«171916_j39848706572604_2_alg».proof.Proof.Spec
import Idealize.ShloMosaic.Lib.Pipeline.Value
import Idealize.ShloMosaic.Lib.ValueIdx

noncomputable section

namespace Cert.Attn.KVal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The projection call -/

/-- The projection at row `row`, column `col` of arrays `X`, `W`, `B`. -/
def projAt (X : S8192x1024.Idx → EReal) (W : S1024x3072.Idx → EReal) (B : S3072.Idx → EReal) (row : Fin 8192) (col : Fin 3072) : EReal :=
  (∑ e : Fin 1024, X (ix2 row e) * W (ix2 e col)) + B (ix1 col)

/-- The projected array as a function of an index. -/
def projG (X : S8192x1024.Idx → EReal) (W : S1024x3072.Idx → EReal) (B : S3072.Idx → EReal) : S8192x3072.Idx → EReal :=
  fun i => projAt X W B ⟨(i 0).val, idx2_lt0 i⟩ ⟨(i 1).val, idx2_lt1 i⟩

/-- The body's value on a block of rows `o * 512 …` of `X` and the whole of the weights and bias, at an index of the
    block. -/
theorem projBlock (x : Vec Ideal S512x1024 .f32) (w : Vec Ideal S1024x3072 .bf16) (b : Vec Ideal S3072 .f32)
    (X : S8192x1024.Idx → EReal) (o : ℕ) (ho : o < 16)
    (hx : ∀ (r : Fin 512) (e : Fin 1024), x (ix2 r e) = X (ix2 (⟨o * 512 + r.val, by omega⟩ : Fin 8192) e))
    (j : S512x3072.Idx) :
    k0_pay1 (F := Ideal) x w b j
      = projAt X w b ⟨o * 512 + (j 0).val, by have := idx2_lt0 j; omega⟩ ⟨(j 1).val, idx2_lt1 j⟩ := by
  rw [eq_ix2 j]
  refine (Cert.Attn.Pay.proj_apply x w b _ _).trans ?_
  unfold projAt
  refine congrArg₂ (· + ·) (Finset.sum_congr rfl fun e _ => congrArg₂ (· * ·) (hx _ e) rfl) rfl

/-- The projection at equal rows and columns of arrays that agree index by index. -/
theorem projAt_congr {X : S8192x1024.Idx → EReal} {W W' : S1024x3072.Idx → EReal} {B B' : S3072.Idx → EReal}
    (hW : ∀ y, W y = W' y) (hB : ∀ y, B y = B' y) {r r' : Fin 8192} {q q' : Fin 3072}
    (hr : r.val = r'.val) (hq : q.val = q'.val) : projAt X W B r q = projAt X W' B' r' q' := by
  obtain rfl : r = r' := Fin.ext hr
  obtain rfl : q = q' := Fin.ext hq
  obtain rfl : W = W' := funext hW
  obtain rfl : B = B' := funext hB
  rfl

/-- The printed index maps of the projection call, decided over the grid. -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (0 : Fin 2) ≤ 15 ∧ win0_3.index t (1 : Fin 2) = 0 :=
  (by decide +kernel : ∀ t : Fin grid0.N, _)

/-- Every block row of the output is some point's. -/
theorem idx_onto0 : ∀ q0 : Fin 16, ∃ t : Fin cfg0.N, win0_3.index t = ![q0.val, 0] :=
  (by decide +kernel : ∀ q0 : Fin 16, ∃ t : Fin grid0.N, win0_3.index t = ![q0.val, 0])

/-- What point `t` writes back is block `t` of the projected array. -/
theorem flushed0_eq (c : Dev nD) (t : Fin cfg0.N) :
    (dat0 (F := Ideal) V c).flushed 3 t
      = ((cfg0.win 3).blk t).view.read (Elt Ideal) (projG (V c main_v6) (V c main_v4) (V c main_v5)) := by
  show (cfg0.win 3).cut (grid0.coords t) ((dat0 (F := Ideal) V c).after 3 t) = _
  rw [after0_3]
  unfold projOut
  rw [View.canon_unit_zero hz2]
  simp only [View.ld_unit_zero (S := S512x1024) hz2, View.ld_unit_zero (S := S1024x3072) hz2, View.ld_unit_zero (S := S3072) hz1]
  obtain ⟨e0, e1, e2, e3, e4, e5, e6⟩ := idx_facts0 t
  funext j
  show k0_pay1 (F := Ideal) (iblk0 V c 0 t) (iblk0 V c 1 t) (iblk0 V c 2 t) j
    = projG (V c main_v6) (V c main_v4) (V c main_v5) (((cfg0.win 3).blk t).view.emb j)
  refine (projBlock (iblk0 V c 0 t) (iblk0 V c 1 t) (iblk0 V c 2 t) (V c main_v6) (win0_3.index t (0 : Fin 2)) (by omega) ?_ j).trans ?_
  · intro r e
    show V c main_v6 (((cfg0.win 0).blk t).view.emb (ix2 r e)) = V c main_v6 (ix2 _ e)
    refine congrArg (V c main_v6) (funext fun a => Fin.ext ?_)
    match a with
    | ⟨0, _⟩ => show win0_0.index t (0 : Fin 2) * 512 + 1 * r.val = win0_3.index t (0 : Fin 2) * 512 + r.val; omega
    | ⟨1, _⟩ => show win0_0.index t (1 : Fin 2) * 1024 + 1 * e.val = e.val; omega
  · unfold projG
    refine projAt_congr (fun y => ?_) (fun y => ?_) ?_ ?_
    · show V c main_v4 (((cfg0.win 1).blk t).view.emb y) = V c main_v4 y
      refine congrArg (V c main_v4) (funext fun a => Fin.ext ?_)
      match a with
      | ⟨0, _⟩ => show win0_1.index t (0 : Fin 2) * 1024 + 1 * (y 0).val = (y 0).val; omega
      | ⟨1, _⟩ => show win0_1.index t (1 : Fin 2) * 3072 + 1 * (y 1).val = (y 1).val; omega
    · show V c main_v5 (((cfg0.win 2).blk t).view.emb y) = V c main_v5 y
      refine congrArg (V c main_v5) (funext fun a => Fin.ext ?_)
      match a with
      | ⟨0, _⟩ => show win0_2.index t (0 : Fin 1) * 3072 + 1 * (y 0).val = (y 0).val; omega
    · show win0_3.index t (0 : Fin 2) * 512 + (j 0).val = win0_3.index t (0 : Fin 2) * 512 + 1 * (j 0).val; omega
    · show (j 1).val = win0_3.index t (1 : Fin 2) * 3072 + 1 * (j 1).val; omega

/-- An index of the array is in point `t`'s block iff each coordinate is in the block's range on its axis. -/
theorem mem_blk0 (t : Fin cfg0.N) (i : S8192x3072.Idx) :
    i ∈ ((cfg0.win 3).blk t).view.set ↔ ∀ a : Fin 2, win0_3.index t a * S512x3072.size a ≤ (i a).val
      ∧ (i a).val < win0_3.index t a * S512x3072.size a + S512x3072.size a := by
  show i ∈ ((View.whole main_v7).slice (win0_3.rect t)).set ↔ _
  rw [View.set_slice_whole, Rect.mem_set_unit]
  exact Iff.rfl

/-- The output's blocks tile its array: row `r` is in the block of the point whose block row is `r / 512`. -/
theorem cover0 (i : S8192x3072.Idx) :
    ∃ t : Fin cfg0.N, (cfg0.win 3).flush t = true ∧ i ∈ ((cfg0.win 3).blk t).view.set := by
  have hi0 : (i 0).val < 8192 := idx2_lt0 i
  have hi1 : (i 1).val < 3072 := idx2_lt1 i
  obtain ⟨t, ht⟩ := idx_onto0 ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 3072 ≤ (i 1).val ∧ (i 1).val < win0_3.index t (1 : Fin 2) * 3072 + 3072; omega

/-- The projected array after the call: the projection of the arrays the call finds, index by index. -/
theorem final0 (c : Dev nD) :
    (dat0 (F := Ideal) V c).arrAt 3 cfg0.N = projG (V c main_v6) (V c main_v4) (V c main_v5) :=
  (dat0 (F := Ideal) V c).arrAt_eq_of_cover 3 (projG (V c main_v6) (V c main_v4) (V c main_v5))
    (fun t _ => flushed0_eq V c t) cover0

/-- The projected array at row `row`, column `col`. -/
theorem projArr (c : Dev nD) (row : Fin 8192) (col : Fin 3072) :
    (dat0 (F := Ideal) V c).arrAt 3 cfg0.N (ix2 row col)
      = projAt (V c main_v6) (V c main_v4) (V c main_v5) row col :=
  congrFun (final0 V c) (ix2 row col)

/-! ## The attention call -/

/-- The attention output at batch entry `n`, query row `s`, feature `e`, of an array `A` whose last axis holds the
    projected queries, keys and values side by side. -/
def attnAt (A : S4x2048x3072.Idx → EReal) (n : Fin 4) (s : Fin 2048) (e : Fin 1024) : EReal :=
  ∑ j : Fin 2048, Cert.Attn.softmaxRow (fun j' : Fin 2048 =>
      (∑ e' : Fin 1024, A (ix3 n s (⟨e'.val, by omega⟩ : Fin 3072)) * A (ix3 n j' (⟨1024 + e'.val, by omega⟩ : Fin 3072)))
        * Cert.Attn.scale) j
    * A (ix3 n j (⟨2048 + e.val, by omega⟩ : Fin 3072))

/-- The attention output array as a function of an index. -/
def attnG (A : S4x2048x3072.Idx → EReal) : S4x2048x1024.Idx → EReal :=
  fun i => attnAt A ⟨(i 0).val, (i 0).isLt⟩ ⟨(i 1).val, (i 1).isLt⟩ ⟨(i 2).val, (i 2).isLt⟩

/-- The attention output at equal coordinates. -/
theorem attnAt_congr (A : S4x2048x3072.Idx → EReal) {n n' : Fin 4} {s s' : Fin 2048} {e e' : Fin 1024}
    (hn : n.val = n'.val) (hs : s.val = s'.val) (he : e.val = e'.val) : attnAt A n s e = attnAt A n' s' e' := by
  obtain rfl : n = n' := Fin.ext hn
  obtain rfl : s = s' := Fin.ext hs
  obtain rfl : e = e' := Fin.ext he
  rfl

/-- The body's value on a block of query rows `o * 512 …` and the key and value blocks of batch entry `n` of `A`, at
    an index of the block. -/
theorem attnBlock (q : Vec Ideal S1x512x1024 .bf16) (k v : Vec Ideal S1x2048x1024 .bf16) (A : S4x2048x3072.Idx → EReal)
    (n : Fin 4) (o : ℕ) (ho : o < 4)
    (hq : ∀ (i : Fin 512) (e : Fin 1024),
      q (ix3 (0 : Fin 1) i e) = A (ix3 n (⟨o * 512 + i.val, by omega⟩ : Fin 2048) (⟨e.val, by omega⟩ : Fin 3072)))
    (hk : ∀ (j : Fin 2048) (e : Fin 1024), k (ix3 (0 : Fin 1) j e) = A (ix3 n j (⟨1024 + e.val, by omega⟩ : Fin 3072)))
    (hv : ∀ (j : Fin 2048) (e : Fin 1024), v (ix3 (0 : Fin 1) j e) = A (ix3 n j (⟨2048 + e.val, by omega⟩ : Fin 3072)))
    (y : S1x512x1024.Idx) :
    k1_pay1 (F := Ideal) q k v y
      = attnAt A n ⟨o * 512 + (y 1).val, by have : (y 1).val < 512 := (y 1).isLt; omega⟩ ⟨(y 2).val, (y 2).isLt⟩ := by
  have hy : y = ix3 (0 : Fin 1) (⟨(y 1).val, (y 1).isLt⟩ : Fin 512) (⟨(y 2).val, (y 2).isLt⟩ : Fin 1024) :=
    funext fun a => match a with
      | ⟨0, _⟩ => Fin.ext (by have : (y 0).val < 1 := (y 0).isLt; show (y 0).val = 0; omega)
      | ⟨1, _⟩ => rfl
      | ⟨2, _⟩ => rfl
  refine (congrArg (k1_pay1 (F := Ideal) q k v) hy).trans ?_
  refine (Cert.Attn.Pay.attn_apply q k v _ _).trans ?_
  unfold attnAt
  refine Finset.sum_congr rfl fun j _ => congrArg₂ (· * ·) ?_ (hv j _)
  refine congrArg (fun L => Cert.Attn.softmaxRow L j) (funext fun j' => ?_)
  refine congrArg (· * Cert.Attn.scale) ?_
  exact Finset.sum_congr rfl fun e' _ => congrArg₂ (· * ·) (hq _ e') (hk j' e')

/-- The printed index maps of the attention call, decided over the grid. -/
theorem idx_facts1 : ∀ t : Fin cfg1.N, win1_0.index t (0 : Fin 3) = win1_3.index t (0 : Fin 3)
    ∧ win1_0.index t (1 : Fin 3) = win1_3.index t (1 : Fin 3) ∧ win1_0.index t (2 : Fin 3) = 0
    ∧ win1_1.index t (0 : Fin 3) = win1_3.index t (0 : Fin 3) ∧ win1_1.index t (1 : Fin 3) = 0 ∧ win1_1.index t (2 : Fin 3) = 1
    ∧ win1_2.index t (0 : Fin 3) = win1_3.index t (0 : Fin 3) ∧ win1_2.index t (1 : Fin 3) = 0 ∧ win1_2.index t (2 : Fin 3) = 2
    ∧ win1_3.index t (0 : Fin 3) ≤ 3 ∧ win1_3.index t (1 : Fin 3) ≤ 3 ∧ win1_3.index t (2 : Fin 3) = 0 :=
  (by decide +kernel : ∀ t : Fin grid1.N, _)

/-- Every block of the output is some point's. -/
theorem idx_onto1 : ∀ (q0 : Fin 4) (q1 : Fin 4), ∃ t : Fin cfg1.N, win1_3.index t = ![q0.val, q1.val, 0] :=
  (by decide +kernel : ∀ (q0 : Fin 4) (q1 : Fin 4), ∃ t : Fin grid1.N, win1_3.index t = ![q0.val, q1.val, 0])

/-- What point `t` writes back is block `t` of the attention output array. -/
theorem flushed1_eq (c : Dev nD) (t : Fin cfg1.N) :
    (dat1 (F := Ideal) V c).flushed 3 t = ((cfg1.win 3).blk t).view.read (Elt Ideal) (attnG (V c main_v8)) := by
  show (cfg1.win 3).cut (grid1.coords t) ((dat1 (F := Ideal) V c).after 3 t) = _
  rw [after1_3]
  unfold attnOut
  rw [View.canon_unit_zero hz3]
  simp only [View.ld_unit_zero (S := S1x512x1024) hz3, View.ld_unit_zero (S := S1x2048x1024) hz3]
  obtain ⟨e0, e1, e2, e3, e4, e5, e6, e7, e8, e9, e10, e11⟩ := idx_facts1 t
  funext y
  show k1_pay1 (F := Ideal) (iblk1 V c 0 t) (iblk1 V c 1 t) (iblk1 V c 2 t) y
    = attnG (V c main_v8) (((cfg1.win 3).blk t).view.emb y)
  refine (attnBlock (iblk1 V c 0 t) (iblk1 V c 1 t) (iblk1 V c 2 t) (V c main_v8)
    ⟨win1_3.index t (0 : Fin 3), by omega⟩ (win1_3.index t (1 : Fin 3)) (by omega) ?_ ?_ ?_ y).trans ?_
  · intro i e
    show V c main_v8 (((cfg1.win 0).blk t).view.emb (ix3 (0 : Fin 1) i e)) = V c main_v8 (ix3 _ _ _)
    refine congrArg (V c main_v8) (funext fun a => Fin.ext ?_)
    match a with
    | ⟨0, _⟩ => show win1_0.index t (0 : Fin 3) * 1 + 1 * 0 = win1_3.index t (0 : Fin 3); omega
    | ⟨1, _⟩ => show win1_0.index t (1 : Fin 3) * 512 + 1 * i.val = win1_3.index t (1 : Fin 3) * 512 + i.val; omega
    | ⟨2, _⟩ => show win1_0.index t (2 : Fin 3) * 1024 + 1 * e.val = e.val; omega
  · intro j e
    show V c main_v8 (((cfg1.win 1).blk t).view.emb (ix3 (0 : Fin 1) j e)) = V c main_v8 (ix3 _ _ _)
    refine congrArg (V c main_v8) (funext fun a => Fin.ext ?_)
    match a with
    | ⟨0, _⟩ => show win1_1.index t (0 : Fin 3) * 1 + 1 * 0 = win1_3.index t (0 : Fin 3); omega
    | ⟨1, _⟩ => show win1_1.index t (1 : Fin 3) * 2048 + 1 * j.val = j.val; omega
    | ⟨2, _⟩ => show win1_1.index t (2 : Fin 3) * 1024 + 1 * e.val = 1024 + e.val; omega
  · intro j e
    show V c main_v8 (((cfg1.win 2).blk t).view.emb (ix3 (0 : Fin 1) j e)) = V c main_v8 (ix3 _ _ _)
    refine congrArg (V c main_v8) (funext fun a => Fin.ext ?_)
    match a with
    | ⟨0, _⟩ => show win1_2.index t (0 : Fin 3) * 1 + 1 * 0 = win1_3.index t (0 : Fin 3); omega
    | ⟨1, _⟩ => show win1_2.index t (1 : Fin 3) * 2048 + 1 * j.val = j.val; omega
    | ⟨2, _⟩ => show win1_2.index t (2 : Fin 3) * 1024 + 1 * e.val = 2048 + e.val; omega
  · unfold attnG
    have hy0 : (y 0).val < 1 := (y 0).isLt
    refine attnAt_congr (V c main_v8) ?_ ?_ ?_
    · show win1_3.index t (0 : Fin 3) = win1_3.index t (0 : Fin 3) * 1 + 1 * (y 0).val; omega
    · show win1_3.index t (1 : Fin 3) * 512 + (y 1).val = win1_3.index t (1 : Fin 3) * 512 + 1 * (y 1).val; omega
    · show (y 2).val = win1_3.index t (2 : Fin 3) * 1024 + 1 * (y 2).val; omega

/-- An index of the array is in point `t`'s block iff each coordinate is in the block's range on its axis. -/
theorem mem_blk1 (t : Fin cfg1.N) (i : S4x2048x1024.Idx) :
    i ∈ ((cfg1.win 3).blk t).view.set ↔ ∀ a : Fin 3, win1_3.index t a * S1x512x1024.size a ≤ (i a).val
      ∧ (i a).val < win1_3.index t a * S1x512x1024.size a + S1x512x1024.size a := by
  show i ∈ ((View.whole main_v9).slice (win1_3.rect t)).set ↔ _
  rw [View.set_slice_whole, Rect.mem_set_unit]
  exact Iff.rfl

/-- The output's blocks tile its array: entry `(n, s, ·)` is in the block of the point at `(n, s / 512)`. -/
theorem cover1 (i : S4x2048x1024.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  obtain ⟨t, ht⟩ := idx_onto1 ⟨(i 0).val, hi0⟩ ⟨(i 1).val / 512, by omega⟩
  have q0 : win1_3.index t (0 : Fin 3) = (i 0).val := congrFun ht 0
  have q1 : win1_3.index t (1 : Fin 3) = (i 1).val / 512 := congrFun ht 1
  have q2 : win1_3.index t (2 : Fin 3) = 0 := congrFun ht 2
  refine ⟨t, flush1_3 t, ?_⟩
  rw [mem_blk1]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 1024 ≤ (i 2).val ∧ (i 2).val < win1_3.index t (2 : Fin 3) * 1024 + 1024; omega

/-- The attention output array after the call: the attention of the array the call finds, index by index. -/
theorem final1 (c : Dev nD) : (dat1 (F := Ideal) V c).arrAt 3 cfg1.N = attnG (V c main_v8) :=
  (dat1 (F := Ideal) V c).arrAt_eq_of_cover 3 (attnG (V c main_v8)) (fun t _ => flushed1_eq V c t) cover1

/-- The attention output array at batch entry `n`, query row `s`, feature `e`. -/
theorem attnArr (c : Dev nD) (n : Fin 4) (s : Fin 2048) (e : Fin 1024) :
    (dat1 (F := Ideal) V c).arrAt 3 cfg1.N (ix3 n s e)
      = attnAt (V c main_v8) n s e :=
  congrFun (final1 V c) (ix3 n s e)

end Cert.Attn.KVal

end
-- ==== Proof.KFinal.lean ====
/-
  The kernel program's result is the scaled dot-product attention `Cert.Attn.G` of its seven argument arrays.

  The second call's output array is, entry by entry, the attention of three column ranges of its operand.  That operand
  is the first call's output array regrouped into planes, whose entries are dot products of the regrouped input with the
  joined weights plus the joined bias; its three column ranges are therefore the query, key and value projections, and
  the attention of those is the specification.
-/
import proofs.«171916_j39848706572604_2_alg».proof.Defs
import proofs.«171916_j39848706572604_2_alg».proof.Proof.ISegs
import proofs.«171916_j39848706572604_2_alg».proof.Proof.HostRun
import proofs.«171916_j39848706572604_2_alg».proof.Proof.QkvVal
import proofs.«171916_j39848706572604_2_alg».proof.Proof.KVal
import proofs.«171916_j39848706572604_2_alg».proof.Proof.Spec

noncomputable section

namespace Cert.Attn.KFinal

open Idealize.ShloMosaic Idealize.ShloMosaic.ValueIdx Idealize.ShloMosaic.TcCoe Idealize.SL.Sem
open Cert.KernelIdeal Cert.KernelIdeal.Gen Cert.KernelIdeal.Hand Cert.Attn.HostVal Cert.Attn.KVal

variable (m : (ℓ : Loc nD τ sig) → Buf (Elt Ideal) ℓ) (ρ : Dev nD → PrngReg) (c : Dev nD)

/-! ## The operands of the two calls -/

/-- The first call's rows operand: the input regrouped into rows. -/
theorem v6_eq : V1 m ρ c main_v6 = rows (m ((c.tc : Thread nD τ).loc main_arg0)) :=
  Cert.Attn.HostRun.after0_v6 (W0 m ρ c)

/-- The first call's weights operand: the joined weights. -/
theorem v4_eq : V1 m ρ c main_v4
    = wcat (m ((c.tc : Thread nD τ).loc main_arg1)) (m ((c.tc : Thread nD τ).loc main_arg3)) (m ((c.tc : Thread nD τ).loc main_arg5)) :=
  Cert.Attn.HostRun.after0_v4 (W0 m ρ c)

/-- The first call's bias operand: the joined biases. -/
theorem v5_eq : V1 m ρ c main_v5
    = bcat (m ((c.tc : Thread nD τ).loc main_arg2)) (m ((c.tc : Thread nD τ).loc main_arg4)) (m ((c.tc : Thread nD τ).loc main_arg6)) :=
  Cert.Attn.HostRun.after0_v5 (W0 m ρ c)

/-- The second call's operand: the first call's output array regrouped into planes. -/
theorem v8_eq : V3 m ρ c main_v8 = unrows ((dat0 (F := Ideal) (V1 m ρ) c).arrAt 3 cfg0.N) :=
  (Cert.Attn.HostRun.after1_v8 (W2 m ρ c)).trans (congrArg unrows (W2_arr m ρ c 3))

/-! ## The two calls' output arrays and the result -/

/-- The first call's output array: each entry a row of the regrouped input against a column of the joined weights,
    plus the joined bias. -/
theorem proj_out (row : Fin 8192) (col : Fin 3072) :
    (dat0 (F := Ideal) (V1 m ρ) c).arrAt 3 cfg0.N (ix2 row col)
      = (∑ e : Fin 1024, rows (m ((c.tc : Thread nD τ).loc main_arg0)) (ix2 row e)
          * wcat (m ((c.tc : Thread nD τ).loc main_arg1)) (m ((c.tc : Thread nD τ).loc main_arg3)) (m ((c.tc : Thread nD τ).loc main_arg5)) (ix2 e col))
        + bcat (m ((c.tc : Thread nD τ).loc main_arg2)) (m ((c.tc : Thread nD τ).loc main_arg4)) (m ((c.tc : Thread nD τ).loc main_arg6)) (ix1 col) := by
  rw [projArr (V1 m ρ) c row col, v6_eq, v4_eq, v5_eq]
  rfl

/-- The second call's output array at batch entry `n`, row `s`, feature `e`. -/
theorem kernel_at (n : Fin 4) (s : Fin 2048) (e : Fin 1024) :
    (dat1 (F := Ideal) (V3 m ρ) c).arrAt 3 cfg1.N (ix3 n s e)
      = Cert.Attn.outAt (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) n s e := by
  rw [attnArr (V3 m ρ) c n s e, v8_eq]
  have hY := proj_out m ρ c
  have hq := Cert.Attn.QkvVal.unrows_q _ _ _ _ _ _ _ _ hY
  have hk := Cert.Attn.QkvVal.unrows_k _ _ _ _ _ _ _ _ hY
  have hv := Cert.Attn.QkvVal.unrows_v _ _ _ _ _ _ _ _ hY
  unfold attnAt
  simp only [hq, hk, hv]
  rfl

/-- The second call's output array is the specification of the launch contents of the arguments. -/
theorem kernel_result :
    (dat1 (F := Ideal) (V3 m ρ) c).arrAt 3 cfg1.N
      = Cert.Attn.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  funext i
  have hi := eq_ix3 (n0 := 4) (n1 := 2048) (n2 := 1024) i
  rw [hi]
  exact kernel_at m ρ c (i 0) (i 1) (i 2)

/-! ## The run -/

/-- Every weakly fair execution of the kernel program ends with its result at the specification of the arguments, and
    the arguments unchanged. -/
theorem run : θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
          r.2.mem ((c.tc : Thread Cert.KernelIdeal.nD Cert.KernelIdeal.τ).loc Cert.KernelIdeal.main_v9)
            = Cert.Attn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
                (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run Cert.KernelIdeal.defs _ _).mono (fun _ h c => ⟨(h c).1.trans (kernel_result m ρ c), (h c).2⟩)
    (Cert.KernelIdeal.Hand.run_result m ρ)

end Cert.Attn.KFinal

end
-- ==== Proof.RefConsts.lean ====
/-
  The float words the two programs spell, as the extended reals they denote: thirty-two, one thirty-second, and
  minus infinity.  Stated once here, so that no other module opens the definition of a word's value.
-/
import Idealize.ShloMosaic.PureOps.Ideal

noncomputable section

namespace Cert.Attn.Consts

open Idealize.ShloMosaic

/-- The word `0x42000000` denotes the real thirty-two. -/
theorem ofBits_32 : Ideal.ofBits .f32 0x42000000#32 = ((32 : ℝ) : EReal) := by
  simp [Ideal.ofBits, Ideal.ieee, -EReal.coe_mul]; norm_num

/-- The word `0x3D000000` denotes the real one thirty-second. -/
theorem ofBits_inv32 : Ideal.ofBits .f32 0x3D000000#32 = ((1 / 32 : ℝ) : EReal) := by
  simp [Ideal.ofBits, Ideal.ieee, -EReal.coe_mul]; norm_num

/-- The word `0xFF800000` denotes minus infinity, the least extended real. -/
theorem ofBits_neg_inf : Ideal.ofBits .f32 0xFF800000#32 = (⊥ : EReal) := by
  simp [Ideal.ofBits, Ideal.ieee]

/-- Dividing by the value of `0x42000000` is multiplying by the value of `0x3D000000`, on every extended real. -/
theorem div_32_eq_mul (s : EReal) :
    Ideal.div s (Ideal.ofBits .f32 0x42000000#32) = s * Ideal.ofBits .f32 0x3D000000#32 := by
  rw [ofBits_32, ofBits_inv32]
  exact Ideal.div_coe (by norm_num) s

end Cert.Attn.Consts

end
-- ==== Proof.RefValue.lean ====
/-
  The idealized reference computes the scaled dot-product attention `Cert.Attn.G` of its seven argument arrays.

  The reference is read one operation at a time at an index written by coordinates: the three projections, the scaled
  scores, the row maximum, the exponentials, their row sum, the normalised row and the final product with the values.
  Three spellings differ from the specification and are bridged here: the scores are divided by thirty-two where the
  specification multiplies by one thirty-second; the row maximum is taken once more against minus infinity, which
  changes nothing because minus infinity is the least extended real; and the row sum starts from zero.
-/
import proofs.«171916_j39848706572604_2_alg».proof.Defs
import proofs.«171916_j39848706572604_2_alg».proof.Proof.Gen.ReferenceIdeal.Read
import proofs.«171916_j39848706572604_2_alg».proof.Proof.Spec
import proofs.«171916_j39848706572604_2_alg».proof.Proof.RefConsts
import Idealize.ShloMosaic.PureOps.Ideal.Laws
import Idealize.ShloMosaic.PureOps.Reduce
import Idealize.ShloMosaic.Lib.ValueIdx

noncomputable section

namespace Cert.Attn.Ref

open Cert.ReferenceIdeal Cert.ReferenceIdeal.Read Idealize.ShloMosaic Idealize.ShloMosaic.ValueIdx Idealize.SL.Sem

/-- The query projection, read at batch entry `n`, row `s`, feature `f`. -/
theorem proj_q (x : SX.Idx → EReal) (W : SW.Idx → EReal) (b : SB.Idx → EReal) (n : Fin 4) (s : Fin 2048) (f : Fin 1024) :
    val_main_v3 (F := Ideal) x W b (ix3 n s f) = proj x W b n s f := by
  rw [val_main_v3_apply, val_main_v0_apply, val_main_v2_apply, val_main_v1_apply]
  have e1 : ∀ k : Fin 1024, lidx_main_v0 (ix3 n s f) k = ix3 n s k := fun k => funext fun a => Fin.ext (by
    match a with | ⟨0, _⟩ => rfl | ⟨1, _⟩ => rfl | ⟨2, _⟩ => rfl)
  have e2 : ∀ k : Fin 1024, ridx_main_v0 (ix3 n s f) k = ix2 f k := fun k => funext fun a => Fin.ext (by
    match a with | ⟨0, _⟩ => rfl | ⟨1, _⟩ => rfl)
  have e3 : idx_main_v1 (idx_main_v2 (ix3 n s f)) = ix1 f := funext fun a => Fin.ext (by
    match a with | ⟨0, _⟩ => rfl)
  simp only [e1, e2, e3, Ideal.addf_def, proj]

/-- The key projection, read at batch entry `n`, row `s`, feature `f`. -/
theorem proj_k (x : SX.Idx → EReal) (W : SW.Idx → EReal) (b : SB.Idx → EReal) (n : Fin 4) (s : Fin 2048) (f : Fin 1024) :
    val_main_v7 (F := Ideal) x W b (ix3 n s f) = proj x W b n s f := by
  rw [val_main_v7_apply, val_main_v4_apply, val_main_v6_apply, val_main_v5_apply]
  have e1 : ∀ k : Fin 1024, lidx_main_v4 (ix3 n s f) k = ix3 n s k := fun k => funext fun a => Fin.ext (by
    match a with | ⟨0, _⟩ => rfl | ⟨1, _⟩ => rfl | ⟨2, _⟩ => rfl)
  have e2 : ∀ k : Fin 1024, ridx_main_v4 (ix3 n s f) k = ix2 f k := fun k => funext fun a => Fin.ext (by
    match a with | ⟨0, _⟩ => rfl | ⟨1, _⟩ => rfl)
  have e3 : idx_main_v5 (idx_main_v6 (ix3 n s f)) = ix1 f := funext fun a => Fin.ext (by
    match a with | ⟨0, _⟩ => rfl)
  simp only [e1, e2, e3, Ideal.addf_def, proj]

/-- The value projection, read at batch entry `n`, row `s`, feature `f`. -/
theorem proj_v (x : SX.Idx → EReal) (W : SW.Idx → EReal) (b : SB.Idx → EReal) (n : Fin 4) (s : Fin 2048) (f : Fin 1024) :
    val_main_v11 (F := Ideal) x W b (ix3 n s f) = proj x W b n s f := by
  rw [val_main_v11_apply, val_main_v8_apply, val_main_v10_apply, val_main_v9_apply]
  have e1 : ∀ k : Fin 1024, lidx_main_v8 (ix3 n s f) k = ix3 n s k := fun k => funext fun a => Fin.ext (by
    match a with | ⟨0, _⟩ => rfl | ⟨1, _⟩ => rfl | ⟨2, _⟩ => rfl)
  have e2 : ∀ k : Fin 1024, ridx_main_v8 (ix3 n s f) k = ix2 f k := fun k => funext fun a => Fin.ext (by
    match a with | ⟨0, _⟩ => rfl | ⟨1, _⟩ => rfl)
  have e3 : idx_main_v9 (idx_main_v10 (ix3 n s f)) = ix1 f := funext fun a => Fin.ext (by
    match a with | ⟨0, _⟩ => rfl)
  simp only [e1, e2, e3, Ideal.addf_def, proj]

/-- The scaled scores: the reference's quotient by thirty-two is the specification's product with one thirty-second. -/
theorem scores (x : SX.Idx → EReal) (Wq : SW.Idx → EReal) (bq : SB.Idx → EReal) (Wk : SW.Idx → EReal) (bk : SB.Idx → EReal)
    (n : Fin 4) (i j : Fin 2048) :
    val_main_v14 (F := Ideal) x Wq bq Wk bk (ix3 n i j) = score (proj x Wq bq) (proj x Wk bk) n i j := by
  rw [val_main_v14_apply, val_main_v12_apply, val_main_v13_apply, val_main_cst_apply]
  have e1 : ∀ k : Fin 1024, lidx_main_v12 (ix3 n i j) k = ix3 n i k := fun k => funext fun a => Fin.ext (by
    match a with | ⟨0, _⟩ => rfl | ⟨1, _⟩ => rfl | ⟨2, _⟩ => rfl)
  have e2 : ∀ k : Fin 1024, ridx_main_v12 (ix3 n i j) k = ix3 n j k := fun k => funext fun a => Fin.ext (by
    match a with | ⟨0, _⟩ => rfl | ⟨1, _⟩ => rfl | ⟨2, _⟩ => rfl)
  simp only [e1, e2, proj_q, proj_k, Ideal.hostDivf_def, Ideal.ofBits_def, Cert.Attn.Consts.div_32_eq_mul, score, scale]

/-- The reduction of the last axis of a `[4, 2048, 2048]` array, as a fact about the shapes. -/
theorem reduces_last : S4x2048x2048.Reduces [2] S4x2048 := by decide

/-- The index of row `(n, i)` with the coordinate `k` inserted on the reduced axis. -/
theorem lift_last (n : Fin 4) (i : Fin 2048) (k : Fin 2048) : reduces_last.lift (ix2 n i) k = ix3 n i k :=
  funext fun a => Fin.ext (by match a with | ⟨0, _⟩ => rfl | ⟨1, _⟩ => rfl | ⟨2, _⟩ => rfl)

/-- The row maximum.  The reference folds `max` over the row from minus infinity and then takes the maximum with minus
    infinity once more; the second step changes nothing, minus infinity being the least extended real. -/
theorem row_max (x : SX.Idx → EReal) (Wq : SW.Idx → EReal) (bq : SB.Idx → EReal) (Wk : SW.Idx → EReal) (bk : SB.Idx → EReal)
    (n : Fin 4) (i : Fin 2048) :
    val_main_v17 (F := Ideal) x Wq bq Wk bk (ix2 n i) = rowMax (fun j => score (proj x Wq bq) (proj x Wk bk) n i j) := by
  rw [val_main_v17_apply, val_main_v16_apply, val_main_cst_1_apply]
  unfold val_main_v15
  rw [Host.reduce_eq_fold_single FloatOps.maximumf _ _ _ reduces_last _ (ix2 n i), val_main_cst_0_apply]
  have eF : (val_main_v14 (F := Ideal) x Wq bq Wk bk ∘ reduces_last.lift (ix2 n i))
      = fun j : Fin 2048 => score (proj x Wq bq) (proj x Wk bk) n i j := funext fun k => by
    exact (congrArg (val_main_v14 (F := Ideal) x Wq bq Wk bk) (lift_last n i k)).trans (scores x Wq bq Wk bk n i k)
  rw [eF]
  exact max_eq_right (by rw [Ideal.ofBits_def, Cert.Attn.Consts.ofBits_neg_inf]; exact bot_le)

/-- The exponential of a score less its row's maximum. -/
theorem exp_stage (x : SX.Idx → EReal) (Wq : SW.Idx → EReal) (bq : SB.Idx → EReal) (Wk : SW.Idx → EReal) (bk : SB.Idx → EReal)
    (n : Fin 4) (i j : Fin 2048) :
    val_main_v21 (F := Ideal) x Wq bq Wk bk (ix3 n i j)
      = Ideal.exp (score (proj x Wq bq) (proj x Wk bk) n i j - rowMax (fun j' => score (proj x Wq bq) (proj x Wk bk) n i j')) := by
  rw [val_main_v21_apply, val_main_v20_apply, val_main_v19_apply, val_main_v18_apply]
  have e1 : idx_main_v18 (idx_main_v19 (ix3 n i j)) = ix2 n i := funext fun a => Fin.ext (by
    match a with | ⟨0, _⟩ => rfl | ⟨1, _⟩ => rfl)
  rw [e1, scores, row_max]
  rfl

/-- The sum of a row's exponentials: the reference's sum starts from the value of the zero word, which is zero. -/
theorem sum_stage (x : SX.Idx → EReal) (Wq : SW.Idx → EReal) (bq : SB.Idx → EReal) (Wk : SW.Idx → EReal) (bk : SB.Idx → EReal)
    (n : Fin 4) (i : Fin 2048) :
    val_main_v22 (F := Ideal) x Wq bq Wk bk (ix2 n i)
      = ∑ u : Fin 2048, Ideal.exp (score (proj x Wq bq) (proj x Wk bk) n i u
          - rowMax (fun j' => score (proj x Wq bq) (proj x Wk bk) n i j')) := by
  rw [val_main_v22_apply, val_main_cst_2_apply, Ideal.ofBits_def, Ideal.ofBits_zero_f32, zero_add]
  refine Finset.sum_congr rfl fun k _ => ?_
  have e1 : idx_main_v22 (ix2 n i) k = ix3 n i k := funext fun a => Fin.ext (by
    match a with | ⟨0, _⟩ => rfl | ⟨1, _⟩ => rfl | ⟨2, _⟩ => rfl)
  rw [e1, exp_stage]

/-- The normalised row: the softmax of the row of scores. -/
theorem soft_stage (x : SX.Idx → EReal) (Wq : SW.Idx → EReal) (bq : SB.Idx → EReal) (Wk : SW.Idx → EReal) (bk : SB.Idx → EReal)
    (n : Fin 4) (i j : Fin 2048) :
    val_main_v25 (F := Ideal) x Wq bq Wk bk (ix3 n i j)
      = softmaxRow (fun j' => score (proj x Wq bq) (proj x Wk bk) n i j') j := by
  rw [val_main_v25_apply, val_main_v24_apply, val_main_v23_apply]
  have e1 : idx_main_v23 (idx_main_v24 (ix3 n i j)) = ix2 n i := funext fun a => Fin.ext (by
    match a with | ⟨0, _⟩ => rfl | ⟨1, _⟩ => rfl)
  rw [e1, exp_stage, sum_stage]
  rfl

/-- The result at batch entry `n`, query row `i`, feature `e`. -/
theorem out_stage (x : SX.Idx → EReal) (Wq : SW.Idx → EReal) (bq : SB.Idx → EReal) (Wk : SW.Idx → EReal) (bk : SB.Idx → EReal)
    (Wv : SW.Idx → EReal) (bv : SB.Idx → EReal) (n : Fin 4) (i : Fin 2048) (e : Fin 1024) :
    val_main_v26 (F := Ideal) x Wq bq Wk bk Wv bv (ix3 n i e) = outAt x Wq bq Wk bk Wv bv n i e := by
  rw [val_main_v26_apply]
  unfold outAt attend
  refine Finset.sum_congr rfl fun k _ => ?_
  have e1 : lidx_main_v26 (ix3 n i e) k = ix3 n i k := funext fun a => Fin.ext (by
    match a with | ⟨0, _⟩ => rfl | ⟨1, _⟩ => rfl | ⟨2, _⟩ => rfl)
  have e2 : ridx_main_v26 (ix3 n i e) k = ix3 n k e := funext fun a => Fin.ext (by
    match a with | ⟨0, _⟩ => rfl | ⟨1, _⟩ => rfl | ⟨2, _⟩ => rfl)
  rw [e1, e2, soft_stage, proj_v]

/-- The reference's last operation, as a function of the seven argument arrays, is the specification. -/
theorem val_eq (x : SX.Idx → EReal) (Wq : SW.Idx → EReal) (bq : SB.Idx → EReal) (Wk : SW.Idx → EReal) (bk : SB.Idx → EReal)
    (Wv : SW.Idx → EReal) (bv : SB.Idx → EReal) :
    val_main_v26 (F := Ideal) x Wq bq Wk bk Wv bv = G x Wq bq Wk bk Wv bv := by
  funext j
  rw [eq_ix3 j]
  exact out_stage x Wq bq Wk bk Wv bv (j 0) (j 1) (j 2)

/-- The term the reference's run ends its result at is the specification of the launch contents of the arguments. -/
theorem result_eq (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v26 (F := Ideal) m' c
      = G (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6)) :=
  (val_main_v26_eq (F := Ideal) m' c).trans (val_eq _ _ _ _ _ _ _)

/-- Every weakly fair execution of the reference ends with its result at the specification of the arguments, and the
    arguments unchanged. -/
theorem run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26)
            = G (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
                (m' ((c.tc : Thread Cert.ReferenceIdeal.nD Cert.ReferenceIdeal.τ).loc Cert.ReferenceIdeal.main_arg2))
                (m' ((c.tc : Thread Cert.ReferenceIdeal.nD Cert.ReferenceIdeal.τ).loc Cert.ReferenceIdeal.main_arg3))
                (m' ((c.tc : Thread Cert.ReferenceIdeal.nD Cert.ReferenceIdeal.τ).loc Cert.ReferenceIdeal.main_arg4))
                (m' ((c.tc : Thread Cert.ReferenceIdeal.nD Cert.ReferenceIdeal.τ).loc Cert.ReferenceIdeal.main_arg5))
                (m' ((c.tc : Thread Cert.ReferenceIdeal.nD Cert.ReferenceIdeal.τ).loc Cert.ReferenceIdeal.main_arg6))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)) :=
  (θ_run Cert.ReferenceIdeal.defs _ _).mono (fun _ h c => ⟨(h c).1.trans (result_eq m' c), (h c).2⟩)
    (Cert.ReferenceIdeal.Value.run (F := Ideal) m' g')

end Cert.Attn.Ref

end
-- ==== Proof.lean ====
/-
  The kernel computes scaled dot-product attention over projected queries, keys and values in two calls — one matrix
  product `x · [Wqᵀ | Wkᵀ | Wvᵀ] + [bq | bk | bv]` over blocks of 512 rows, then, per batch entry and block of 512 query
  rows, the scores against all 2048 key rows scaled by 1/32, a softmax along each row and the product with the values —
  and the reference computes the same with three projections, a division by 32 and jax's softmax.  On the extended reals
  both are the one function `Cert.Attn.G` of the seven argument arrays: the sums and products are the same terms, the
  product with 1/32 is the quotient by 32, and the reference's second maximum against −∞ changes nothing.  No finiteness
  of the inputs is used.

  Each program runs to the end with its arguments unchanged: the kernel program's run is the composition of its two host
  stretches and its two calls (the second call reading one array through three windows), the reference's the run of its
  host operations.  The idealization rewrote nothing, so its statement is trivial.
-/
import proofs.«171916_j39848706572604_2_alg».proof.Defs
import proofs.«171916_j39848706572604_2_alg».proof.Proof.Gen.Kernel
import proofs.«171916_j39848706572604_2_alg».proof.Proof.Gen.KernelIdeal
import proofs.«171916_j39848706572604_2_alg».proof.Proof.Gen.ReferenceIdeal
import proofs.«171916_j39848706572604_2_alg».proof.Proof.Gen.Pre_finite_inputs
import proofs.«171916_j39848706572604_2_alg».proof.Proof.KSegs
import proofs.«171916_j39848706572604_2_alg».proof.Proof.KFinal
import proofs.«171916_j39848706572604_2_alg».proof.Proof.RefValue
import Idealize.ShloMosaic.Adequacy
import Idealize.ShloMosaic.Init

noncomputable section

namespace Cert.Proof

open Idealize.ShloMosaic Idealize.SL.Sem

/-- The word-level program runs to the end and leaves its arguments as launched. -/
theorem frame_k : Cert.frame_Kernel (hKernel := Cert.Kernel.Gen.facts) (hPre_finite_inputs := Cert.Pre_finite_inputs.Gen.facts) :=
  fun m ρ _ => (θ_run Cert.Kernel.defs _ _).mono (fun _ h c => (h c).2) (Cert.Kernel.Hand.run_result (F := Bits) m ρ)

/-- So does the idealized program. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Hand.run_result (F := Ideal) m ρ)

/-- And the idealized reference: its run with the result dropped. -/
theorem frame_ri : Cert.frame_ReferenceIdeal (hReferenceIdeal := Cert.ReferenceIdeal.Gen.facts) (hPre_finite_inputs := Cert.Pre_finite_inputs.Gen.facts) :=
  fun m g _ => (θ_run Cert.ReferenceIdeal.defs _ _).mono (fun _ h c => (h c).2) (Cert.ReferenceIdeal.Value.run (F := Ideal) m g)

/-- From memories agreeing on the arguments both idealized programs end with the attention of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.Attn.KFinal.run m ρ, ?_⟩
  refine (θ_run Cert.ReferenceIdeal.defs _ _).mono (fun _ h c => ⟨(h c).1.trans ?_, (h c).2⟩) (Cert.Attn.Ref.run m' ρ')
  rw [(hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
